-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x2048 : Shape := ⟨3, ![8, 256, 2048]⟩
abbrev S_ : Shape := ⟨0, ![]⟩

class Facts : Prop where
  bcast_S_S8x256x2048 : S_.BroadcastsInDim S8x256x2048 (![] : Fin 0 → Fin S8x256x2048.rank)
  reducesTo_S8x256x2048_S_d0_1_2 : S8x256x2048.ReducesTo [0, 1, 2] S_
  h_S_ : 0 < S_.numel

variable [Facts]

def fn {F : FTy → Type} [FloatOps F] (main_arg0 : FVec F S8x256x2048 .f32) (main_arg1 : FVec F S8x256x2048 .f32) : IVec S_ 1 :=
  let main_v0 : FVec F S8x256x2048 .f32 := Host.absf main_arg0
  let main_cst : FVec F S_ .f32 := constant S_ .f32 0x7F800000#32
  let main_v1 : FVec F S8x256x2048 .f32 := broadcastInDim S8x256x2048 ![] bcast_S_S8x256x2048 main_cst
  let main_v2 : IVec S8x256x2048 1 := cmpf .olt main_v0 main_v1
  let main_c : IVec S_ 1 := constantI S_ 1 1#1
  let main_v3 : IVec S_ 1 := (fun x v => Host.reduce IntOp.andi x v reducesTo_S8x256x2048_S_d0_1_2 h_S_) main_v2 main_c
  let main_v4 : FVec F S8x256x2048 .f32 := Host.absf main_arg1
  let main_cst_0 : FVec F S_ .f32 := constant S_ .f32 0x7F800000#32
  let main_v5 : FVec F S8x256x2048 .f32 := broadcastInDim S8x256x2048 ![] bcast_S_S8x256x2048 main_cst_0
  let main_v6 : IVec S8x256x2048 1 := cmpf .olt main_v4 main_v5
  let main_c_1 : IVec S_ 1 := constantI S_ 1 1#1
  let main_v7 : IVec S_ 1 := (fun x v => Host.reduce IntOp.andi x v reducesTo_S8x256x2048_S_d0_1_2 h_S_) main_v6 main_c_1
  let main_v8 : IVec S_ 1 := andi main_v3 main_v7
  main_v8
-- ==== Kernel.lean ====
abbrev S8x256x2048 : Shape := ⟨3, ![8, 256, 2048]⟩
abbrev S8x1x2048 : Shape := ⟨3, ![8, 1, 2048]⟩
abbrev S1x256x2048 : Shape := ⟨3, ![1, 256, 2048]⟩
abbrev S1x256x512 : Shape := ⟨3, ![1, 256, 512]⟩
abbrev S1x1x512 : Shape := ⟨3, ![1, 1, 512]⟩
abbrev S256x2048 : Shape := ⟨2, ![256, 2048]⟩
abbrev S256x512 : Shape := ⟨2, ![256, 512]⟩
abbrev S512x2048 : Shape := ⟨2, ![512, 2048]⟩
abbrev S512 : Shape := ⟨1, ![512]⟩
abbrev S512x1 : Shape := ⟨2, ![512, 1]⟩
abbrev S8x2048 : Shape := ⟨2, ![8, 2048]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .f32⟩
  | .hbm, ⟨2, _⟩ => ⟨S8x1x2048, .f32⟩
  | .hbm, ⟨3, _⟩ => ⟨S8x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x256x2048, .f32⟩
  | .local _ .vmem, ⟨1, _⟩ => ⟨S1x256x2048, .f32⟩
  | .local _ .vmem, ⟨2, _⟩ => ⟨S1x256x512, .f32⟩
  | .local _ .vmem, ⟨3, _⟩ => ⟨S1x256x512, .f32⟩
  | .local _ .vmem, ⟨4, _⟩ => ⟨S1x1x512, .f32⟩
  | .local _ .vmem, ⟨5, _⟩ => ⟨S1x1x512, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 3 → Nat :=
  let c0_8 : Index := 0#32
  let c0_9 : Index := 0#32
  let arg1 : BitVec 32 := BitVec.ofNat 32 (i 1).val
  let c512_i32 : BitVec 32 := 512#32
  let v0 : BitVec 32 := Scalar.muli arg1 c512_i32
  let v1 : BitVec 32 := v0
  let v20 : Index := Scalar.indexCast v1
  ![0, 0, v20.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  reduces_S256x512_S512 : S256x512.Reduces [0] S512
  shapeCasts_S512x1_S512 : S512x1.ShapeCasts S512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x1x512 : S512.ShapeCasts S1x1x512
  shapeCasts_S8x1x2048_S8x2048 : S8x1x2048.ShapeCasts S8x2048
  reducesTo_S8x2048_S_d0_1 : S8x2048.ReducesTo [0, 1] S_
  h_S_ : 0 < S_.numel
  dot_S256x512_S256x2048_S512x2048_0_0_1_1_n_n_wf : DotDims.WF S256x512 S256x2048 S512x2048 [0] [0] [1] [1] [] []
  hrank0 : 0 < grid0.rank
  k0_mult1_dvd : ∀ i : grid0.Coords, 512 ∣ (k0_mult1 i).toNat
  k0_off1_inb : ∀ i : grid0.Coords, ∀ a, (k0_off1 i) a + S1x256x512.size a ≤ S1x256x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x256x2048.size a
  hwx0_0 : ∀ i : grid0.Coords, EltTy.bits .f32 = 32 ∨ (Rect.block (s := S8x256x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S8x256x2048.size a
  hwx0_1 : ∀ i : grid0.Coords, EltTy.bits .f32 = 32 ∨ (Rect.block (s := S8x256x2048) S1x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x2048.size a
  hwx0_2 : ∀ i : grid0.Coords, EltTy.bits .f32 = 32 ∨ (Rect.block (s := S8x1x2048) S1x1x512.size (cc0_transform_2 i) (hinb0_2 i)).WholeWords (EltTy.packing .f32)

variable [Facts₀]

def dot_S256x512_S256x2048_S512x2048_0_0_1_1_n_n : DotDims S256x512 S256x2048 S512x2048 where
  lhsContracting := [0]
  rhsContracting := [0]
  lhsNonContracting := [1]
  rhsNonContracting := [1]
  lhsBatch := []
  rhsBatch := []
  wf := dot_S256x512_S256x2048_S512x2048_0_0_1_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x2048 : Shape := ⟨3, ![8, 256, 2048]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩
abbrev S2048 : Shape := ⟨1, ![2048]⟩
abbrev S2048x1 : Shape := ⟨2, ![2048, 1]⟩
abbrev S2048x2 : Shape := ⟨2, ![2048, 2]⟩

abbrev nBuf : Space → Nat
  | .hbm => 46
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .f32⟩
  | .hbm, ⟨2, _⟩ => ⟨S8x2048x2048, .f32⟩
  | .hbm, ⟨3, _⟩ => ⟨S_, .f32⟩
  | .hbm, ⟨4, _⟩ => ⟨S8x2048x2048, .f32⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x1x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S8x1x2048, .f32⟩
  | .hbm, ⟨18, _⟩ => ⟨S8x1x2048, .f32⟩
  | .hbm, ⟨19, _⟩ => ⟨S8x2048x2048, .f32⟩
  | .hbm, ⟨20, _⟩ => ⟨S8x2048x2048, .f32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .i32⟩
  | .hbm, ⟨37, _⟩ => ⟨S2048x1, .i32⟩
  | .hbm, ⟨38, _⟩ => ⟨S2048x1, .i32⟩
  | .hbm, ⟨39, _⟩ => ⟨S2048x2, .i32⟩
  | .hbm, ⟨40, _⟩ => ⟨S8x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v3 : Ref sig .tc := ⟨.hbm, 20, rfl⟩
abbrev main_call1_v0 : Ref sig .tc := ⟨.hbm, 21, rfl⟩
abbrev main_call1_v1 : Ref sig .tc := ⟨.hbm, 22, rfl⟩
abbrev main_call1_c : Ref sig .tc := ⟨.hbm, 23, rfl⟩
abbrev main_call1_v2 : Ref sig .tc := ⟨.hbm, 24, rfl⟩
abbrev main_call1_v3 : Ref sig .tc := ⟨.hbm, 25, rfl⟩
abbrev main_call1_c_0 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_c_1 : Ref sig .tc := ⟨.hbm, 30, rfl⟩
abbrev main_call1_v7 : Ref sig .tc := ⟨.hbm, 31, rfl⟩
abbrev main_call1_v8 : Ref sig .tc := ⟨.hbm, 32, rfl⟩
abbrev main_call1_c_2 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_v12 : Ref sig .tc := ⟨.hbm, 37, rfl⟩
abbrev main_call1_v13 : Ref sig .tc := ⟨.hbm, 38, rfl⟩
abbrev main_call1_v14 : Ref sig .tc := ⟨.hbm, 39, rfl⟩
abbrev main_v4 : Ref sig .tc := ⟨.hbm, 40, rfl⟩
abbrev main_cst_0 : Ref sig .tc := ⟨.hbm, 41, rfl⟩
abbrev main_v5 : Ref sig .tc := ⟨.hbm, 42, rfl⟩
abbrev main_cst_1 : Ref sig .tc := ⟨.hbm, 43, rfl⟩
abbrev main_v6 : Ref sig .tc := ⟨.hbm, 44, rfl⟩
abbrev main_v7 : Ref sig .tc := ⟨.hbm, 45, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  reducesTo_S8x2048_S_d0_1 : S8x2048.ReducesTo [0, 1] S_
  dot_S8x256x2048_S8x256x2048_S8x2048x2048_1_1_2_2_0_0_wf : DotDims.WF S8x256x2048 S8x256x2048 S8x2048x2048 [1] [1] [2] [2] [0] [0]
  gather_S8x2048x2048_S2048x2_S8x2048_0_12_n_n_12_1_811_wf : GatherDims.WF S8x2048x2048 S2048x2 S8x2048 [0] [1, 2] [] [1, 2] [] 1 ![8, 1, 1]

variable [Facts₀]

def dot_S8x256x2048_S8x256x2048_S8x2048x2048_1_1_2_2_0_0 : DotDims S8x256x2048 S8x256x2048 S8x2048x2048 where
  lhsContracting := [1]
  rhsContracting := [1]
  lhsNonContracting := [2]
  rhsNonContracting := [2]
  lhsBatch := [0]
  rhsBatch := [0]
  wf := dot_S8x256x2048_S8x256x2048_S8x2048x2048_1_1_2_2_0_0_wf
def gather_S8x2048x2048_S2048x2_S8x2048_0_12_n_n_12_1_811 : GatherDims S8x2048x2048 S2048x2 S8x2048 where
  offsetDims := [0]
  collapsedSliceDims := [1, 2]
  operandBatchingDims := []
  startIndicesBatchingDims := []
  startIndexMap := [1, 2]
  indexVectorDim := 1
  sliceSizes := ![8, 1, 1]
  wf := gather_S8x2048x2048_S2048x2_S8x2048_0_12_n_n_12_1_811_wf

class Facts : Prop extends Facts₀ where

variable [Facts]
-- ==== Proof.Spec.lean ====
/-
  The mathematics both programs compute, stated once over plain coordinates.

  For two arrays z1, z2 of shape [8, 256, 2048] (batch b, sample s, feature n or m) the correlation logits are
  logit b n m = ∑ s, z1[b,s,n] · z2[b,s,m].  For each batch b and column m the softmax axis is n: with
  M = max over n of logit b n m and Z = ∑ n, exp (logit b n m − M), the cross-entropy of column m against the
  label n = m is (M + log Z) − logit b m m, and the log-softmax at the diagonal is (logit b m m − M) − log Z: one is
  the negative of the other whenever the three numbers are real.  One program averages the first over the 8 · 2048
  columns, the other negates the average of the second.
-/
import Idealize.ShloMosaic.PureOps.Ideal
import Idealize.ShloMosaic.Lib.ValueIdx

noncomputable section

open scoped BigOperators

namespace DiagCE

open Idealize.ShloMosaic Idealize.ShloMosaic.ValueIdx

/-- The arrays' shape: batch, sample, feature. -/
abbrev A3 : Shape := ⟨3, ![8, 256, 2048]⟩

/-- One block's logits: column `v` (256 samples of one feature of z2) against the 2048 columns of `u` (z1). -/
def blockLogit (u : Fin 256 → Fin 2048 → EReal) (v : Fin 256 → EReal) (n : Fin 2048) : EReal :=
  ∑ s : Fin 256, v s * u s n

/-- The maximum of a column of logits, as the fold of `max` from −∞. -/
def foldMax (f : Fin 2048 → EReal) : EReal := (Finset.univ : Finset (Fin 2048)).fold max ⊥ f

/-- One column's cross-entropy from its pieces: the logits `f` over the softmax axis and the diagonal logit `d`. -/
def lossOf (f : Fin 2048 → EReal) (d : EReal) : EReal :=
  (foldMax f + Ideal.log (∑ n : Fin 2048, Ideal.exp (f n - foldMax f))) - d

/-- One column's log-softmax at the diagonal from the same pieces. -/
def logpOf (f : Fin 2048 → EReal) (d : EReal) : EReal :=
  (d - foldMax f) - Ideal.log (∑ n : Fin 2048, Ideal.exp (f n - foldMax f))

/-- What one grid point's body computes at lane `j`: `u` the z1 block, `v` column j of the z2 block, `w` column j of
    the z1 block's diagonal strip. -/
def blockLoss (u : Fin 256 → Fin 2048 → EReal) (v w : Fin 256 → EReal) : EReal :=
  lossOf (blockLogit u v) (∑ s : Fin 256, w s * v s)

/-- logit b n m = ∑ s, z1[b,s,n] · z2[b,s,m]. -/
def logit (z1 z2 : A3.Idx → EReal) (b : Fin 8) (n m : Fin 2048) : EReal :=
  ∑ s : Fin 256, z1 (ix3 b s n) * z2 (ix3 b s m)

/-- Column (b, m)'s cross-entropy against the label n = m. -/
def colLoss (z1 z2 : A3.Idx → EReal) (b : Fin 8) (m : Fin 2048) : EReal :=
  lossOf (fun n => logit z1 z2 b n m) (logit z1 z2 b m m)

/-- Column (b, m)'s log-softmax at the diagonal. -/
def diagLogp (z1 z2 : A3.Idx → EReal) (b : Fin 8) (m : Fin 2048) : EReal :=
  logpOf (fun n => logit z1 z2 b n m) (logit z1 z2 b m m)

/-- The number of columns, 8 · 2048 = 16384, as the f32 literal both programs divide by. -/
def nCols : EReal := Ideal.ofBits .f32 0x46800000#32

/-- The mean cross-entropy over all columns. -/
def meanLoss (z1 z2 : A3.Idx → EReal) : EReal :=
  Ideal.div (∑ b : Fin 8, ∑ m : Fin 2048, colLoss z1 z2 b m) nCols

/-- The negated mean log-softmax diagonal over all columns. -/
def negMeanLogp (z1 z2 : A3.Idx → EReal) : EReal :=
  -(Ideal.div (∑ b : Fin 8, ∑ m : Fin 2048, diagLogp z1 z2 b m) nCols)

/-- A column's cross-entropy is the block's: the products commute. -/
theorem colLoss_eq_blockLoss (z1 z2 : A3.Idx → EReal) (b : Fin 8) (m : Fin 2048) :
    colLoss z1 z2 b m
      = blockLoss (fun s n => z1 (ix3 b s n)) (fun s => z2 (ix3 b s m)) (fun s => z1 (ix3 b s m)) := by
  unfold colLoss blockLoss
  congr 1
  funext n
  unfold logit blockLogit
  exact Finset.sum_congr rfl fun s _ => mul_comm _ _

end DiagCE

end
-- ==== Proof.Payload.lean ====
/-
  One grid point's stored value at one lane.

  The body takes a [1, 256, 2048] block u of z1, a [1, 256, 512] block v of z2 and a [1, 256, 512] strip w of the
  z1 block. With s the sample axis (256), n the softmax axis (2048) and j the lane (512), it forms the logits
  L[j, n] = ∑ s, v[s, j] · u[s, n] (a product contracting the sample axis of both operands, into a zero accumulator,
  then divided by 1), the row maximum m[j] = max over n of L[j, n] (a fold of max from −∞), the row sum
  Z[j] = ∑ n, exp (L[j, n] − m[j]), and the diagonal logit d[j] = ∑ s, w[s, j] · v[s, j] (divided by 1); lane j of the
  result is (m[j] + log Z[j]) − d[j]. Over the extended reals every step is exact: a change of float format is the
  identity, division by 1 is the identity at the infinities too, and the reshapes between [512], [512, 1] and
  [1, 1, 512] and the drop of a leading unit axis keep each element at its row-major position. So lane j is the
  cross-entropy of column j of v against the columns of u, with the diagonal logit read from w: DiagCE.blockLoss.

  The file reads each operation that is not elementwise at explicit coordinates (the reshapes, the broadcast of a
  column along the lanes, the three one-axis reductions, the product), then the body's four pieces (logits, maximum,
  log-sum-exp, diagonal), then the whole.
-/
import proofs.«172110_j1056561955229_1_alg».proof.Proof.Spec
import proofs.«172110_j1056561955229_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Idealize.ShloMosaic Idealize.ShloMosaic.ValueIdx Cert.KernelIdeal

variable [Cert.KernelIdeal.Facts]

/-! ## The three constants and division by one -/

/-- The pattern of 1.0 denotes the extended real 1. -/
theorem one_f32 : Ideal.ofBits .f32 0x3F800000#32 = 1 := by
  simp [Ideal.ofBits, Ideal.ieee, -EReal.coe_mul] <;> norm_num

/-- The pattern of -inf denotes the bottom element. -/
theorem neginf_f32 : Ideal.ofBits .f32 0xFF800000#32 = ⊥ := by
  simp [Ideal.ofBits, Ideal.ieee]

/-- Dividing by one changes no extended real, the infinities included. -/
theorem div_one (x : EReal) : Ideal.div x 1 = x := by
  have h := Ideal.div_coe (one_ne_zero) x
  simpa using h

/-! ## The casts and the broadcast at explicit coordinates -/

/-- A vector of 512 viewed as a column [512, 1]. -/
theorem cast_512_512x1 {α : Type} (v : S512.Idx → α) (h : S512.ShapeCasts S512x1) (j : Fin 512) (u : Fin 1) :
    shapeCast S512x1 v h (ix2 j u) = v (ix1 j) :=
  shapeCast_apply v h _ _ (by
    have hu : u.val = 0 := by omega
    rw [Shape.rowMajor_val_two, Shape.rowMajor_val_one]
    show j.val = j.val * 1 + u.val
    omega)

/-- A column [512, 1] viewed as a vector of 512. -/
theorem cast_512x1_512 {α : Type} (v : S512x1.Idx → α) (h : S512x1.ShapeCasts S512) (j : Fin 512) :
    shapeCast S512 v h (ix1 j) = v (ix2 j (0 : Fin 1)) :=
  shapeCast_apply v h _ _ (by
    rw [Shape.rowMajor_val_two, Shape.rowMajor_val_one]
    show j.val * 1 + 0 = j.val
    omega)

/-- A vector of 512 viewed as [1, 1, 512]. -/
theorem cast_512_1x1x512 {α : Type} (v : S512.Idx → α) (h : S512.ShapeCasts S1x1x512) (j : Fin 512) :
    shapeCast S1x1x512 v h (ix3 (0 : Fin 1) (0 : Fin 1) j) = v (ix1 j) :=
  shapeCast_apply v h _ _ (by
    rw [Shape.rowMajor_val_three, Shape.rowMajor_val_one]
    show j.val = (0 * 1 + 0) * 512 + j.val
    omega)

/-- A column [512, 1] broadcast along 2048 lanes reads its row's one entry. -/
theorem bcast_512x1_512x2048 {α : Type} (v : S512x1.Idx → α) (h : S512x1.Broadcasts S512x2048) (j : Fin 512) (n : Fin 2048) :
    broadcastTo S512x2048 v h (ix2 j n) = v (ix2 j (0 : Fin 1)) := by
  refine broadcastTo_apply v h (ix2 j n) (ix2 j (0 : Fin 1)) fun ax => ?_
  match ax with
  | ⟨0, _⟩ => rfl
  | ⟨1, _⟩ => rfl

/-! ## The three lane reductions at explicit coordinates -/

/-- Over row j of a [512, 2048] array, the index with lane n put back is (j, n). -/
theorem lift_row (h : S512x2048.Reduces [1] S512) (j : Fin 512) (n : Fin 2048) :
    h.lift (ix1 j) n = ix2 j n :=
  funext fun c => Fin.ext (match c with | ⟨0, _⟩ => rfl | ⟨1, _⟩ => rfl)

/-- Over column j of a [256, 512] array, the index with sample s put back is (s, j). -/
theorem lift_col (h : S256x512.Reduces [0] S512) (j : Fin 512) (s : Fin 256) :
    h.lift (ix1 j) s = ix2 s j :=
  funext fun c => Fin.ext (match c with | ⟨0, _⟩ => rfl | ⟨1, _⟩ => rfl)

/-- The row maximum from -inf is the fold of max from the bottom element over the row. -/
theorem rowmax_apply (src : FVec Ideal S512x2048 .f32) (h : S512x2048.Reduces [1] S512) (hφ : FKind.Formats .f32)
    (hacc : (0xFF800000#32 : BitVec 32) = FKind.maximumf.neutral .f32 hφ) (j : Fin 512) :
    multiReduction (F := Ideal) .maximumf [1] S512 src 0xFF800000#32 h hφ hacc (ix1 j)
      = DiagCE.foldMax (fun n => src (ix2 j n)) := by
  rw [Ideal.multiReduction_maximumf_single]
  show Finset.fold max (Ideal.ofBits .f32 0xFF800000#32) _ _ = _
  rw [neginf_f32]
  exact congrArg (fun f => Finset.fold max ⊥ f Finset.univ) (funext fun n => congrArg src (lift_row h j n))

/-- The row sum from zero is the sum over the row. -/
theorem rowsum_apply (src : FVec Ideal S512x2048 .f32) (h : S512x2048.Reduces [1] S512) (hφ : FKind.Formats .f32)
    (hacc : (0x00000000#32 : BitVec 32) = FKind.add.neutral .f32 hφ) (j : Fin 512) :
    multiReduction (F := Ideal) .add [1] S512 src 0x00000000#32 h hφ hacc (ix1 j) = ∑ n : Fin 2048, src (ix2 j n) := by
  rw [Ideal.multiReduction_add_single]
  exact Finset.sum_congr rfl fun n _ => congrArg src (lift_row h j n)

/-- The column sum from zero is the sum over the column. -/
theorem colsum_apply (src : FVec Ideal S256x512 .f32) (h : S256x512.Reduces [0] S512) (hφ : FKind.Formats .f32)
    (hacc : (0x00000000#32 : BitVec 32) = FKind.add.neutral .f32 hφ) (j : Fin 512) :
    multiReduction (F := Ideal) .add [0] S512 src 0x00000000#32 h hφ hacc (ix1 j) = ∑ s : Fin 256, src (ix2 s j) := by
  rw [Ideal.multiReduction_add_single]
  exact Finset.sum_congr rfl fun s _ => congrArg src (lift_col h j s)

/-! ## The matrix product at explicit coordinates -/

/-- The body's dot: both operands contract their axis 0 (the 256 samples); rows come from the left
    operand's axis 1, columns from the right operand's axis 1. -/
abbrev D := dot_S256x512_S256x2048_S512x2048_0_0_1_1_n_n

/-- The left operand is read at the output's row on its axis 1 … -/
theorem lhs_row (i : S512x2048.Idx) (q : D.contr.Idx) : (D.lhsIdx i q 1).val = (i 0).val := by
  unfold DotDims.lhsIdx
  rw [dif_neg (show ¬(1 : Fin S256x512.rank) ∈ D.lhsBatch by decide),
    dif_pos (show (1 : Fin S256x512.rank) ∈ D.lhsNonContracting by decide)]
  rfl

/-- … and the right operand at the output's column on its axis 1. -/
theorem rhs_col (i : S512x2048.Idx) (q : D.contr.Idx) : (D.rhsIdx i q 1).val = (i 1).val := by
  unfold DotDims.rhsIdx
  rw [dif_neg (show ¬(1 : Fin S256x2048.rank) ∈ D.rhsBatch by decide),
    dif_pos (show (1 : Fin S256x2048.rank) ∈ D.rhsNonContracting by decide)]
  rfl

/-- Entry (j, n) of the product into a zero accumulator: the sum over the samples of the left operand's
    column j times the right operand's column n. -/
theorem matmul_at (a : FVec Ideal S256x512 .bf16) (b : FVec Ideal S256x2048 .bf16) (j : Fin 512) (n : Fin 2048) :
    matmul (F := Ideal) D none a b (constant S512x2048 .f32 0x00000000#32) (ix2 j n)
      = ∑ s : Fin 256, a (ix2 s j) * b (ix2 s n) := by
  simp only [matmul]
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix2 j n) ((contrEquiv1 D 256 rfl rfl).symm k) = ix2 k j := funext fun c => Fin.ext (by
    match c with
    | ⟨0, _⟩ => exact (D.lhsIdx_val_of_single rfl _ _).trans hk
    | ⟨1, _⟩ => exact lhs_row _ _)
  have er : D.rhsIdx (ix2 j n) ((contrEquiv1 D 256 rfl rfl).symm k) = ix2 k n := funext fun c => Fin.ext (by
    match c with
    | ⟨0, _⟩ => exact (D.rhsIdx_val_of_single rfl _ _).trans hk
    | ⟨1, _⟩ => exact rhs_col _ _)
  rw [el, er]

/-! ## The body's pieces at one lane -/

/-- The logits: entry (j, n) of the product, divided by the splat 1.0, is the block logit of column j of the
    z2 block against column n of the z1 block. -/
theorem logits_at (x0 : Vec Ideal S1x256x2048 .f32) (x1 : Vec Ideal S1x256x512 .f32)
    (h0 : S1x256x2048.ShapeCasts S256x2048) (h1 : S1x256x512.ShapeCasts S256x512) (hb : FTy.bits .bf16 < FTy.bits .f32)
    (j : Fin 512) (n : Fin 2048) :
    divf (matmul (F := Ideal) D none (truncf .bf16 (shapeCast S256x512 x1 h1) hb) (truncf .bf16 (shapeCast S256x2048 x0 h0) hb)
        (constant S512x2048 .f32 0x00000000#32)) (broadcast S512x2048 (Scalar.ofBits .f32 0x3F800000#32)) (ix2 j n)
      = DiagCE.blockLogit (fun s n => x0 (ix3 (0 : Fin 1) s n)) (fun s => x1 (ix3 (0 : Fin 1) s j)) n := by
  rw [divf_apply, matmul_at, broadcast_apply]
  show Ideal.div _ (Ideal.ofBits .f32 0x3F800000#32) = _
  rw [one_f32, div_one]
  unfold DiagCE.blockLogit
  refine Finset.sum_congr rfl fun s _ => ?_
  rw [truncf_apply, truncf_apply, shapeCast_1ab_ab_apply, shapeCast_1ab_ab_apply]

/-- The row maximum, kept as a column: at row j it is the fold of max over the row's logits. -/
theorem max_at (L : FVec Ideal S512x2048 .f32) (f : Fin 2048 → EReal) (j : Fin 512) (hL : ∀ n, L (ix2 j n) = f n)
    (hr : S512x2048.Reduces [1] S512) (hφ : FKind.Formats .f32)
    (hacc : (0xFF800000#32 : BitVec 32) = FKind.maximumf.neutral .f32 hφ) (hc : S512.ShapeCasts S512x1) (u : Fin 1) :
    shapeCast S512x1 (multiReduction (F := Ideal) .maximumf [1] S512 L 0xFF800000#32 hr hφ hacc) hc (ix2 j u)
      = DiagCE.foldMax f := by
  rw [cast_512_512x1, rowmax_apply]
  exact congrArg DiagCE.foldMax (funext hL)

/-- The log-sum-exp with the maximum taken out and added back: at row j, with m the row's maximum,
    m + log (sum over n of exp (f n - m)). -/
theorem lse_at (L : FVec Ideal S512x2048 .f32) (M : FVec Ideal S512x1 .f32) (f : Fin 2048 → EReal) (m : EReal) (j : Fin 512)
    (hL : ∀ n, L (ix2 j n) = f n) (hM : M (ix2 j (0 : Fin 1)) = m)
    (hb : S512x1.Broadcasts S512x2048) (hr : S512x2048.Reduces [1] S512) (hφ : FKind.Formats .f32)
    (hacc : (0x00000000#32 : BitVec 32) = FKind.add.neutral .f32 hφ) (hc : S512.ShapeCasts S512x1) (hc' : S512x1.ShapeCasts S512) :
    shapeCast S512 (addf M (log (shapeCast S512x1 (multiReduction (F := Ideal) .add [1] S512
        (exp (subf L (broadcastTo S512x2048 M hb))) 0x00000000#32 hr hφ hacc) hc))) hc' (ix1 j)
      = m + Ideal.log (∑ n : Fin 2048, Ideal.exp (f n - m)) := by
  rw [cast_512x1_512, addf_apply, hM]
  show m + Ideal.log (shapeCast S512x1 _ hc (ix2 j (0 : Fin 1))) = _
  rw [cast_512_512x1, rowsum_apply]
  refine congrArg (fun z => m + Ideal.log z) (Finset.sum_congr rfl fun n _ => ?_)
  show Ideal.exp (L (ix2 j n) - broadcastTo S512x2048 M hb (ix2 j n)) = _
  rw [hL, bcast_512x1_512x2048, hM]

/-- The diagonal logit: the column sum of the strip times the z2 block, divided by the splat 1.0. -/
theorem diag_at (x1 x21 : Vec Ideal S1x256x512 .f32) (h1 : S1x256x512.ShapeCasts S256x512)
    (hr : S256x512.Reduces [0] S512) (hφ : FKind.Formats .f32)
    (hacc : (0x00000000#32 : BitVec 32) = FKind.add.neutral .f32 hφ) (j : Fin 512) :
    divf (multiReduction (F := Ideal) .add [0] S512 (mulf (shapeCast S256x512 x21 h1) (shapeCast S256x512 x1 h1))
        0x00000000#32 hr hφ hacc) (broadcast S512 (Scalar.ofBits .f32 0x3F800000#32)) (ix1 j)
      = ∑ s : Fin 256, x21 (ix3 (0 : Fin 1) s j) * x1 (ix3 (0 : Fin 1) s j) := by
  rw [divf_apply, colsum_apply, broadcast_apply]
  show Ideal.div _ (Ideal.ofBits .f32 0x3F800000#32) = _
  rw [one_f32, div_one]
  refine Finset.sum_congr rfl fun s _ => ?_
  rw [mulf_apply, shapeCast_1ab_ab_apply, shapeCast_1ab_ab_apply]

/-! ## The body's value at one lane -/

/-- Lane j of what one grid point stores: the cross-entropy of column j of the z2 block against the z1 block,
    its diagonal logit taken from the strip. -/
theorem pay_apply (x0 : Vec Ideal S1x256x2048 .f32) (x1 x21 : Vec Ideal S1x256x512 .f32) (j : Fin 512) :
    Gen.k0_pay1 (F := Ideal) x0 x1 x21 (ix3 (0 : Fin 1) (0 : Fin 1) j)
      = DiagCE.blockLoss (fun s n => x0 (ix3 (0 : Fin 1) s n)) (fun s => x1 (ix3 (0 : Fin 1) s j))
          (fun s => x21 (ix3 (0 : Fin 1) s j)) := by
  unfold Gen.k0_pay1
  refine (cast_512_1x1x512 _ _ j).trans ?_
  refine (subf_apply _ _ _).trans ?_
  unfold DiagCE.blockLoss DiagCE.lossOf
  refine congrArg₂ (fun a b : EReal => a - b) ?_ ?_
  · exact lse_at _ _ _ _ j (fun n => logits_at x0 x1 _ _ _ j n)
      (max_at _ _ j (fun n => logits_at x0 x1 _ _ _ j n) _ _ _ _ 0) _ _ _ _ _ _
  · exact diag_at x1 x21 _ _ _ _ j

end Cert.KernelIdeal.BodyValue

end
-- ==== Proof.KernelValue.lean ====
/-
  What the kernel's program ends with, at the ideal instance.

  The grid has 8 × 4 points; point (b, q) stages batch b of z1 whole ([1, 256, 2048]), columns 512 q … 512 q + 511 of
  batch b of z2 ([1, 256, 512]), and writes columns 512 q … 512 q + 511 of row b of the result [8, 1, 2048]. Its body
  stores ONE value, computed from the two staged blocks and from the strip of the first block that starts at column
  512 q (the diagonal's columns of z1). Lane j of that value is the cross-entropy of column (b, 512 q + j): the
  logits of the block are the column's logits, and the strip's column j is z1's column 512 q + j. The 32 blocks tile the
  result array, so after the call it holds every column's cross-entropy, and the host lines after the call (drop the
  unit axis, sum everything from zero, divide by 16384) leave the mean.
-/
import proofs.«172110_j1056561955229_1_alg».proof.Proof.Gen.KernelIdeal.Frame
import proofs.«172110_j1056561955229_1_alg».proof.Proof.Spec
import proofs.«172110_j1056561955229_1_alg».proof.Proof.Payload
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable [Cert.KernelIdeal.Facts]

theorem hz3 : (![0, 0, 0] : Fin 3 → Nat) = fun _ => 0 := funext fun a => by fin_cases a <;> rfl

/-- What the body leaves in the output's staging buffer: its one store's value, computed from the two input blocks and
    from the strip of the first block that starts at the point's column offset. -/
theorem out_A {F : FTy → Type} [FloatOps F] (c : Dev nD) (i : grid0.Coords) (a2 : Memref sig .tc .vmem S1x256x2048 .f32) (h2 : a2.IsWhole)
    (a3 : Memref sig .tc .vmem S1x256x512 .f32) (h3 : a3.IsWhole) (a4 : Memref sig .tc .vmem S1x1x512 .f32) (h4 : a4.IsWhole)
    (x0 : Vec F S1x256x2048 .f32) (x1 : Vec F S1x256x512 .f32) :
    out0_A_2 c i a2 h2 a3 h3 a4 h4 x0 x1
      = k0_pay1 x0 x1 (View.ld x0 (Rect.unit (s := S1x256x2048) (k0_off1 i) S1x256x512.size (k0_off1_inb i))) := by
  unfold out0_A_2
  rw [View.read_writes_eq_canon _ _ _ (cover0_A_2 c i a2 h2 a3 h3 a4 h4 x0 x1)]
  unfold kernelRun0_A
  dsimp only
  sl_unfold_words
  rw [View.canon_unit_zero hz3]
  simp only [View.readAt_eq_ld, h2.read_unread, h3.read_unread, View.ld_unit_zero (S := S1x256x2048) hz3, View.ld_unit_zero (S := S1x256x512) hz3]

/-- One lane of one grid point: if the first block is batch `b` of z1, the second block's lane `j` is column `512 q + j` of
    batch `b` of z2, and the strip starts at column `512 q`, the body's value at lane `j` is that column's cross-entropy. -/
theorem point_value (z1 z2 : DiagCE.A3.Idx → EReal) (x0 : Vec Ideal S1x256x2048 .f32) (x1 : Vec Ideal S1x256x512 .f32)
    (off : Fin 3 → Nat) (inb : ∀ a, off a + S1x256x512.size a ≤ S1x256x2048.size a)
    (b : Fin 8) (q : Nat) (hq4 : q < 4) (j : Fin 512)
    (h0 : ∀ (s : Fin 256) (n : Fin 2048), x0 (ix3 (0 : Fin 1) s n) = z1 (ix3 b s n))
    (h1 : ∀ s : Fin 256, x1 (ix3 (0 : Fin 1) s j) = z2 (ix3 b s ⟨q * 512 + j.val, by have := j.isLt; omega⟩))
    (hoff : off = ![0, 0, q * 512]) :
    k0_pay1 (F := Ideal) x0 x1 (View.ld x0 (Rect.unit (s := S1x256x2048) off S1x256x512.size inb)) (ix3 (0 : Fin 1) (0 : Fin 1) j)
      = DiagCE.colLoss z1 z2 b ⟨q * 512 + j.val, by have := j.isLt; omega⟩ := by
  subst hoff
  rw [Cert.KernelIdeal.BodyValue.pay_apply, DiagCE.colLoss_eq_blockLoss]
  have e0 : (fun (s : Fin 256) (n : Fin 2048) => x0 (ix3 (0 : Fin 1) s n)) = fun s n => z1 (ix3 b s n) :=
    funext fun s => funext fun n => h0 s n
  have e1 : (fun s : Fin 256 => x1 (ix3 (0 : Fin 1) s j)) = fun s => z2 (ix3 b s ⟨q * 512 + j.val, by have := j.isLt; omega⟩) := funext h1
  have e2 : (fun s : Fin 256 => View.ld x0 (Rect.unit (s := S1x256x2048) ![0, 0, q * 512] S1x256x512.size inb) (ix3 (0 : Fin 1) s j))
      = fun s => z1 (ix3 b s ⟨q * 512 + j.val, by have := j.isLt; omega⟩) := funext fun s => by
    rw [← h0 s ⟨q * 512 + j.val, by have := j.isLt; omega⟩]
    show x0 _ = x0 _
    congr 1
    funext a
    apply Fin.ext
    match a with
    | ⟨0, _⟩ => rfl
    | ⟨1, _⟩ => show 0 + 1 * s.val = s.val; omega
    | ⟨2, _⟩ => show q * 512 + 1 * j.val = q * 512 + j.val; omega
  rw [e0, e1, e2]

variable (m : (ℓ : Loc nD τ sig) → Buf (Elt Ideal) ℓ) (ρ : Dev nD → PrngReg)

/-- The result array [8, 1, 2048] as one function of the two argument arrays: entry (b, 0, m) is column (b, m)'s
    cross-entropy. -/
def lossArr (z1 z2 : DiagCE.A3.Idx → EReal) : S8x1x2048.Idx → EReal :=
  fun i => DiagCE.colLoss z1 z2 ⟨(i 0).val, (i 0).isLt⟩ ⟨(i 2).val, (i 2).isLt⟩

/-- One grid point's whole block: if the block's lane `y` sits at (b, 0, 512 q + y) of the result array, the body's value
    there is `lossArr` there. -/
theorem block_value (z1 z2 : DiagCE.A3.Idx → EReal) (x0 : Vec Ideal S1x256x2048 .f32) (x1 : Vec Ideal S1x256x512 .f32)
    (off : Fin 3 → Nat) (inb : ∀ a, off a + S1x256x512.size a ≤ S1x256x2048.size a)
    (b : Fin 8) (q : Nat) (hq4 : q < 4)
    (h0 : ∀ (s : Fin 256) (n : Fin 2048), x0 (ix3 (0 : Fin 1) s n) = z1 (ix3 b s n))
    (h1 : ∀ (s : Fin 256) (j : Fin 512), x1 (ix3 (0 : Fin 1) s j) = z2 (ix3 b s ⟨q * 512 + j.val, by have := j.isLt; omega⟩))
    (hoff : off = ![0, 0, q * 512])
    (e : S1x1x512.Idx → S8x1x2048.Idx) (he0 : ∀ y, (e y 0).val = b.val) (he2 : ∀ y, (e y 2).val = q * 512 + (y 2).val)
    (y : S1x1x512.Idx) :
    k0_pay1 (F := Ideal) x0 x1 (View.ld x0 (Rect.unit (s := S1x256x2048) off S1x256x512.size inb)) y
      = lossArr z1 z2 (e y) := by
  obtain ⟨j, rfl⟩ : ∃ j : Fin 512, y = ix3 (0 : Fin 1) (0 : Fin 1) j :=
    ⟨y 2, funext fun a => by
      match a with
      | ⟨0, _⟩ => exact Subsingleton.elim (α := Fin 1) _ _
      | ⟨1, _⟩ => exact Subsingleton.elim (α := Fin 1) _ _
      | ⟨2, _⟩ => rfl⟩
  rw [point_value z1 z2 x0 x1 off inb b q hq4 j h0 (fun s => h1 s j) hoff]
  unfold lossArr
  congr 1
  · exact Fin.ext (he0 _).symm
  · exact Fin.ext (he2 (ix3 (0 : Fin 1) (0 : Fin 1) j)).symm

/-- The printed index maps over the 8 × 4 grid: point t = (b, q) stages batch b of z1 whole, the q-th strip of 512 columns
    of batch b of z2, writes the q-th strip of row b of the result, and its in-block column offset is 512 q. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0
    ∧ win0_1.index t (2 : Fin 3) = win0_2.index t (2 : Fin 3)
    ∧ win0_2.index t (1 : Fin 3) = 0 ∧ win0_2.index t (0 : Fin 3) < 8 ∧ win0_2.index t (2 : Fin 3) < 4
    ∧ k0_off1 (grid0.coords t) = ![0, 0, win0_2.index t (2 : Fin 3) * 512] :=
  (by decide +kernel : ∀ t : Fin grid0.N, _)

/-- Every block of the result is some point's. -/
theorem idx_onto : ∀ (b : Fin 8) (q : Fin 4), ∃ t : Fin cfg0.N, win0_2.index t (0 : Fin 3) = b.val ∧ win0_2.index t (2 : Fin 3) = q.val :=
  (by decide +kernel : ∀ (b : Fin 8) (q : Fin 4), ∃ t : Fin grid0.N, win0_2.index t (0 : Fin 3) = b.val ∧ win0_2.index t (2 : Fin 3) = q.val)

/-- What point `t` writes back is block `t` of `lossArr` of the argument arrays. -/
theorem flushed_eq (c : Dev nD) (t : Fin cfg0.N) :
    (dats m 0 c).flushed 2 t
      = ((cfg0.win 2).blk t).view.read (Elt Ideal) (lossArr (V m c main_arg0) (V m c main_arg1)) := by
  show (cfg0.win 2).cut (grid0.coords t) ((dats m 0 c).after 2 t) = _
  rw [after0_2]
  unfold outsAt0
  rw [out_A]
  obtain ⟨e0, e1, e2, e3, e4, e5, e6, e7, e8, e9⟩ := idx_facts t
  funext y
  refine block_value (V m c main_arg0) (V m c main_arg1) (iblk m c 0 t) (iblk m c 1 t) (k0_off1 (grid0.coords t)) (k0_off1_inb _)
    ⟨win0_2.index t (0 : Fin 3), e7⟩ (win0_2.index t (2 : Fin 3)) e8 ?_ ?_ e9 (fun y => ((cfg0.win 2).blk t).view.emb y) ?_ ?_ y
  · intro s n
    show V m c main_arg0 (((cfg0.win 0).blk t).view.emb (ix3 (0 : Fin 1) s n)) = V m c main_arg0 _
    congr 1
    funext a
    apply Fin.ext
    match a with
    | ⟨0, _⟩ => show win0_0.index t (0 : Fin 3) * 1 + 1 * 0 = win0_2.index t (0 : Fin 3); omega
    | ⟨1, _⟩ => show win0_0.index t (1 : Fin 3) * 256 + 1 * s.val = s.val; omega
    | ⟨2, _⟩ => show win0_0.index t (2 : Fin 3) * 2048 + 1 * n.val = n.val; omega
  · intro s j
    show V m c main_arg1 (((cfg0.win 1).blk t).view.emb (ix3 (0 : Fin 1) s j)) = V m c main_arg1 _
    congr 1
    funext a
    apply Fin.ext
    match a with
    | ⟨0, _⟩ => show win0_1.index t (0 : Fin 3) * 1 + 1 * 0 = win0_2.index t (0 : Fin 3); omega
    | ⟨1, _⟩ => show win0_1.index t (1 : Fin 3) * 256 + 1 * s.val = s.val; omega
    | ⟨2, _⟩ => show win0_1.index t (2 : Fin 3) * 512 + 1 * j.val = win0_2.index t (2 : Fin 3) * 512 + j.val; omega
  · intro y
    show win0_2.index t (0 : Fin 3) * 1 + 1 * (y 0).val = win0_2.index t (0 : Fin 3)
    have : (y 0).val < 1 := (y 0).isLt
    omega
  · intro y
    show win0_2.index t (2 : Fin 3) * 512 + 1 * (y 2).val = win0_2.index t (2 : Fin 3) * 512 + (y 2).val
    omega

/-- An index of the result array is in point `t`'s block iff each coordinate is in the block's range on its axis. -/
theorem mem_blk (t : Fin cfg0.N) (i : S8x1x2048.Idx) :
    i ∈ ((cfg0.win 2).blk t).view.set ↔ ∀ a : Fin 3, win0_2.index t a * S1x1x512.size a ≤ (i a).val ∧ (i a).val < win0_2.index t a * S1x1x512.size a + S1x1x512.size a := by
  show i ∈ ((View.whole main_v0).slice (win0_2.rect t)).set ↔ _
  rw [View.set_slice_whole, Rect.mem_set_unit]
  exact Iff.rfl

/-- The 32 blocks tile the result array: entry (b, 0, m) is in the block of the point with batch b and strip m / 512. -/
theorem cover (i : S8x1x2048.Idx) :
    ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 2048 := (i 2).isLt
  obtain ⟨t, ht0, ht2⟩ := idx_onto ⟨(i 0).val, hi0⟩ ⟨(i 2).val / 512, by omega⟩
  obtain ⟨e0, e1, e2, e3, e4, e5, e6, e7, e8, e9⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1
              simp only at ht0; omega
  | ⟨1, _⟩ => show win0_2.index t (1 : Fin 3) * 1 ≤ (i 1).val ∧ (i 1).val < win0_2.index t (1 : Fin 3) * 1 + 1; omega
  | ⟨2, _⟩ => show win0_2.index t (2 : Fin 3) * 512 ≤ (i 2).val ∧ (i 2).val < win0_2.index t (2 : Fin 3) * 512 + 512
              simp only at ht2; omega

/-- So after the run the result array holds every column's cross-entropy. -/
theorem final (c : Dev nD) : (dats m 0 c).arrAt 2 cfg0.N = lossArr (V m c main_arg0) (V m c main_arg1) :=
  (dats m 0 c).arrAt_eq_of_cover 2 _ (fun t _ => flushed_eq m c t) cover

/-- The host lines after the call, on any result array that holds `lossArr`: dropping the unit axis, summing all 8 · 2048
    entries from zero and dividing by 16384 gives the mean cross-entropy. -/
theorem tail_value (z1 z2 : DiagCE.A3.Idx → EReal) (v0 : FVec Ideal S8x1x2048 .f32) (h : v0 = lossArr z1 z2) :
    Host.divf (F := Ideal) (Host.reduceAdd (F := Ideal) (shapeCast S8x2048 v0 shapeCasts_S8x1x2048_S8x2048)
        (constant (F := Ideal) S_ .f32 0x00000000#32) reducesTo_S8x2048_S_d0_1 h_S_) (constant (F := Ideal) S_ .f32 0x46800000#32)
      = fun _ => DiagCE.meanLoss z1 z2 := by
  subst h
  funext i
  have hs : Host.reduceAdd (F := Ideal) (shapeCast S8x2048 (lossArr z1 z2) shapeCasts_S8x1x2048_S8x2048)
      (constant (F := Ideal) S_ .f32 0x00000000#32) reducesTo_S8x2048_S_d0_1 h_S_ i
      = ∑ b : Fin 8, ∑ mm : Fin 2048, DiagCE.colLoss z1 z2 b mm := by
    have hcast : ∀ (b : Fin 8) (mm : Fin 2048),
        shapeCast S8x2048 (lossArr z1 z2) shapeCasts_S8x1x2048_S8x2048 (ix2 b mm) = DiagCE.colLoss z1 z2 b mm := fun b mm =>
      shapeCast_apply _ _ (ix2 b mm) (ix3 b (0 : Fin 1) mm)
        (by rw [Shape.rowMajor_val_two, Shape.rowMajor_val_three]
            show (b.val * 1 + 0) * 2048 + mm.val = b.val * 2048 + mm.val
            omega)
    generalize hy : shapeCast S8x2048 (lossArr z1 z2) shapeCasts_S8x1x2048_S8x2048 = y0 at hcast
    simp only [Host.reduceAdd, Ideal.hostReduceAdd_def]
    rw [Ideal.hostReduceAdd_total reducesTo_S8x2048_S_d0_1 (fun b => b.elim0) y0 _ i]
    rw [show (constant (F := Ideal) S_ .f32 0x00000000#32) (Shape.Idx.first h_S_) = 0 from Ideal.ofBits_zero_f32, zero_add, sum_idx2]
    exact Finset.sum_congr rfl fun b _ => Finset.sum_congr rfl fun mm _ => hcast b mm
  show Ideal.div (Host.reduceAdd (F := Ideal) (shapeCast S8x2048 (lossArr z1 z2) shapeCasts_S8x1x2048_S8x2048)
      (constant (F := Ideal) S_ .f32 0x00000000#32) reducesTo_S8x2048_S_d0_1 h_S_ i) (Ideal.ofBits .f32 0x46800000#32) = _
  rw [hs]
  rfl

/-- The result buffer after the host lines: the mean cross-entropy of the argument arrays. -/
theorem tail_eq (c : Dev nD) :
    (Pipeline.afterTail₀ cfgs (dats m) 0 (V0 m) [hostOps1] c main_v3 : (⟨S_, .f32⟩ : BufTy).Contents (Elt Ideal))
      = fun _ => DiagCE.meanLoss (m ((c : Thread nD τ).loc main_arg0)) (m ((c : Thread nD τ).loc main_arg1)) := by
  unfold Pipeline.afterTail₀
  simp only [List.flatten_cons, List.flatten_nil, List.append_nil]
  after_results
  refine tail_value _ _ _ ?_
  exact (Pipeline.withArrays_arr spec0 launch0.win.arr_inj c _ _ 2).trans (final m c)

/-- The kernel's program, run: every weakly fair execution ends with the result buffer at the mean cross-entropy of the
    argument arrays, and the argument arrays as they were. -/
theorem run : θ_run defs (onTc (τ := τ) (main (F := Ideal))) ⟨m, fun _ => 0, ρ⟩ fun r => ∀ c : Dev nD,
      r.2.mem ((c.tc : Thread nD τ).loc main_v3)
        = (fun _ => DiagCE.meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KValue

end
-- ==== Proof.RefRun.lean ====
/-
  The reference program's run, with its result named by the stage functions.

  The reference is a straight line of 44 array operations: the batched product of the two arguments, a column-wise
  log-softmax (maximum, subtraction, exponential, sum, logarithm, subtraction), the construction of the diagonal's
  index array, the gather of the diagonal, the sum of the gathered entries, the division by the number of columns and
  the negation.  Run from any memory, every buffer ends at the composition of the operations that feed it, applied to
  the two arguments' contents at launch; the arguments themselves are not written.  The composition for the last buffer
  is the stage function val_main_v7 of the two arguments, each stage being one operation applied to earlier stages.

  The composition is checked piece by piece.  The line is cut into five consecutive pieces; what a piece leaves in the
  buffers a later piece reads is a stage of the arguments, given that the buffers it reads itself hold stages; running
  the pieces one after the other (after_append) then gives the last stage in the result buffer.
-/
import proofs.«172110_j1056561955229_1_alg».proof.Proof.RefRead
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The program's 44 operations, in order; the operations of the two called functions (the log-softmax and the
    diagonal's index array) stand where their calls are. -/
abbrev ops : List (HloOp τ sig (Elt F)) :=
  [ binary main_arg0 main_arg1 main_v0 ((fun l r => Host.dotGeneral dot_S8x256x2048_S8x256x2048_S8x2048x2048_1_1_2_2_0_0 none l r) : (⟨S8x256x2048, .f32⟩ : BufTy).Contents (Elt F) → (⟨S8x256x2048, .f32⟩ : BufTy).Contents (Elt F) → (⟨S8x2048x2048, .f32⟩ : BufTy).Contents (Elt F)),
    nullary main_cst (constant S_ .f32 0x3F800000#32),
    unary main_cst main_v1 (broadcastInDim S8x2048x2048 ![] bcast_S_S8x2048x2048 : (⟨S_, .f32⟩ : BufTy).Contents (Elt F) → (⟨S8x2048x2048, .f32⟩ : BufTy).Contents (Elt F)),
    binary main_v0 main_v1 main_v2 (Host.divf : (⟨S8x2048x2048, .f32⟩ : BufTy).Contents (Elt F) → (⟨S8x2048x2048, .f32⟩ : BufTy).Contents (Elt F) → (⟨S8x2048x2048, .f32⟩ : BufTy).Contents (Elt F)),
    TRef.nullary (TRef.of (T := ⟨S_, .f32⟩) main_call0_cst) (constant S_ .f32 0xFF800000#32),
    TRef.binary (TRef.of (T := ⟨S8x2048x2048, .f32⟩) main_v2) (TRef.of (T := ⟨S_, .f32⟩) main_call0_cst) (TRef.of (T := ⟨S8x2048, .f32⟩) main_call0_v0) (fun x v => Host.reduce FloatOps.maximumf x v reducesTo_S8x2048x2048_S8x2048_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8x2048, .f32⟩) main_call0_v1) (broadcastInDim S8x2048 ![] bcast_S_S8x2048),
    TRef.binary (TRef.of (T := ⟨S8x2048, .f32⟩) main_call0_v1) (TRef.of (T := ⟨S8x2048, .f32⟩) main_call0_v0) (TRef.of (T := ⟨S8x2048, .f32⟩) main_call0_v2) maximumf,
    TRef.unary (TRef.of (T := ⟨S8x2048, .f32⟩) main_call0_v2) (TRef.of (T := ⟨S8x1x2048, .f32⟩) main_call0_v3) (broadcastInDim S8x1x2048 ![0, 2] bcast_S8x2048_S8x1x2048_0_2),
    TRef.unary (TRef.of (T := ⟨S8x1x2048, .f32⟩) main_call0_v3) (TRef.of (T := ⟨S8x2048x2048, .f32⟩) main_call0_v4) (broadcastInDim S8x2048x2048 ![0, 1, 2] bcast_S8x1x2048_S8x2048x2048_0_1_2),
    TRef.binary (TRef.of (T := ⟨S8x2048x2048, .f32⟩) main_v2) (TRef.of (T := ⟨S8x2048x2048, .f32⟩) main_call0_v4) (TRef.of (T := ⟨S8x2048x2048, .f32⟩) main_call0_v5) subf,
    TRef.unary (TRef.of (T := ⟨S8x2048x2048, .f32⟩) main_call0_v5) (TRef.of (T := ⟨S8x2048x2048, .f32⟩) main_call0_v6) Host.exp,
    TRef.nullary (TRef.of (T := ⟨S_, .f32⟩) main_call0_cst_1) (constant S_ .f32 0x00000000#32),
    TRef.binary (TRef.of (T := ⟨S8x2048x2048, .f32⟩) main_call0_v6) (TRef.of (T := ⟨S_, .f32⟩) main_call0_cst_1) (TRef.of (T := ⟨S8x2048, .f32⟩) main_call0_v7) (fun x v => Host.reduceAdd x v reducesTo_S8x2048x2048_S8x2048_d1 h_S_),
    TRef.unary (TRef.of (T := ⟨S8x2048, .f32⟩) main_call0_v7) (TRef.of (T := ⟨S8x1x2048, .f32⟩) main_call0_v8) (broadcastInDim S8x1x2048 ![0, 2] bcast_S8x2048_S8x1x2048_0_2),
    TRef.unary (TRef.of (T := ⟨S8x1x2048, .f32⟩) main_call0_v8) (TRef.of (T := ⟨S8x1x2048, .f32⟩) main_call0_v9) Host.log,
    TRef.unary (TRef.of (T := ⟨S8x1x2048, .f32⟩) main_call0_v9) (TRef.of (T := ⟨S8x2048x2048, .f32⟩) main_call0_v10) (broadcastInDim S8x2048x2048 ![0, 1, 2] bcast_S8x1x2048_S8x2048x2048_0_1_2),
    TRef.binary (TRef.of (T := ⟨S8x2048x2048, .f32⟩) main_call0_v5) (TRef.of (T := ⟨S8x2048x2048, .f32⟩) main_call0_v10) (TRef.of (T := ⟨S8x2048x2048, .f32⟩) main_v3) subf,
    TRef.nullary (TRef.of (T := ⟨S2048, .i32⟩) main_call1_v0) (iotaInDim S2048 32 0),
    TRef.nullary (TRef.of (T := ⟨S2048, .i32⟩) main_call1_v1) (iotaInDim S2048 32 0),
    TRef.nullary (TRef.of (T := ⟨S_, .i32⟩) main_call1_c) (constantI S_ 32 0#32),
    TRef.unary (TRef.of (T := ⟨S_, .i32⟩) main_call1_c) (TRef.of (T := ⟨S2048, .i32⟩) main_call1_v2) (broadcastInDim S2048 ![] bcast_S_S2048),
    TRef.binary (TRef.of (T := ⟨S2048, .i32⟩) main_call1_v0) (TRef.of (T := ⟨S2048, .i32⟩) main_call1_v2) (TRef.of (T := ⟨S2048, .i1⟩) main_call1_v3) (cmpi .slt),
    TRef.nullary (TRef.of (T := ⟨S_, .i32⟩) main_call1_c_0) (constantI S_ 32 2048#32),
    TRef.unary (TRef.of (T := ⟨S_, .i32⟩) main_call1_c_0) (TRef.of (T := ⟨S2048, .i32⟩) main_call1_v4) (broadcastInDim S2048 ![] bcast_S_S2048),
    TRef.binary (TRef.of (T := ⟨S2048, .i32⟩) main_call1_v0) (TRef.of (T := ⟨S2048, .i32⟩) main_call1_v4) (TRef.of (T := ⟨S2048, .i32⟩) main_call1_v5) addi,
    TRef.ternary (TRef.of (T := ⟨S2048, .i1⟩) main_call1_v3) (TRef.of (T := ⟨S2048, .i32⟩) main_call1_v5) (TRef.of (T := ⟨S2048, .i32⟩) main_call1_v0) (TRef.of (T := ⟨S2048, .i32⟩) main_call1_v6) select,
    TRef.nullary (TRef.of (T := ⟨S_, .i32⟩) main_call1_c_1) (constantI S_ 32 0#32),
    TRef.unary (TRef.of (T := ⟨S_, .i32⟩) main_call1_c_1) (TRef.of (T := ⟨S2048, .i32⟩) main_call1_v7) (broadcastInDim S2048 ![] bcast_S_S2048),
    TRef.binary (TRef.of (T := ⟨S2048, .i32⟩) main_call1_v1) (TRef.of (T := ⟨S2048, .i32⟩) main_call1_v7) (TRef.of (T := ⟨S2048, .i1⟩) main_call1_v8) (cmpi .slt),
    TRef.nullary (TRef.of (T := ⟨S_, .i32⟩) main_call1_c_2) (constantI S_ 32 2048#32),
    TRef.unary (TRef.of (T := ⟨S_, .i32⟩) main_call1_c_2) (TRef.of (T := ⟨S2048, .i32⟩) main_call1_v9) (broadcastInDim S2048 ![] bcast_S_S2048),
    TRef.binary (TRef.of (T := ⟨S2048, .i32⟩) main_call1_v1) (TRef.of (T := ⟨S2048, .i32⟩) main_call1_v9) (TRef.of (T := ⟨S2048, .i32⟩) main_call1_v10) addi,
    TRef.ternary (TRef.of (T := ⟨S2048, .i1⟩) main_call1_v8) (TRef.of (T := ⟨S2048, .i32⟩) main_call1_v10) (TRef.of (T := ⟨S2048, .i32⟩) main_call1_v1) (TRef.of (T := ⟨S2048, .i32⟩) main_call1_v11) select,
    TRef.unary (TRef.of (T := ⟨S2048, .i32⟩) main_call1_v6) (TRef.of (T := ⟨S2048x1, .i32⟩) main_call1_v12) (broadcastInDim S2048x1 ![0] bcast_S2048_S2048x1_0),
    TRef.unary (TRef.of (T := ⟨S2048, .i32⟩) main_call1_v11) (TRef.of (T := ⟨S2048x1, .i32⟩) main_call1_v13) (broadcastInDim S2048x1 ![0] bcast_S2048_S2048x1_0),
    TRef.binary (TRef.of (T := ⟨S2048x1, .i32⟩) main_call1_v12) (TRef.of (T := ⟨S2048x1, .i32⟩) main_call1_v13) (TRef.of (T := ⟨S2048x2, .i32⟩) main_call1_v14) (fun a b => concatenate S2048x2 1 [⟨S2048x1, a⟩, ⟨S2048x1, b⟩] concatenates_S2048x1_S2048x1_S2048x2_d1),
    TRef.binary (TRef.of (T := ⟨S8x2048x2048, .f32⟩) main_v3) (TRef.of (T := ⟨S2048x2, .i32⟩) main_call1_v14) (TRef.of (T := ⟨S8x2048, .f32⟩) main_v4) (fun x i => Host.gather gather_S8x2048x2048_S2048x2_S8x2048_0_12_n_n_12_1_811 x i),
    nullary main_cst_0 (constant S_ .f32 0x00000000#32),
    binary main_v4 main_cst_0 main_v5 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    nullary main_cst_1 (constant S_ .f32 0x46800000#32),
    binary main_v5 main_cst_1 main_v6 (Host.divf : (⟨S_, .f32⟩ : BufTy).Contents (Elt F) → (⟨S_, .f32⟩ : BufTy).Contents (Elt F) → (⟨S_, .f32⟩ : BufTy).Contents (Elt F)),
    unary main_v6 main_v7 (Host.negf : (⟨S_, .f32⟩ : BufTy).Contents (Elt F) → (⟨S_, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., nullary_bufs_sub .., binary_bufs_sub .., unary_bufs_sub ..⟩

/-! ## The line in five pieces

  ops1: the logits, their scaling by one, and each column's maximum.  ops2: the maximum floored at −∞, spread back over
  the column, and the shifted logits.  ops3: exponential, column sums, logarithm, and the log-softmax.  ops4: the index
  array of the diagonal (two copies of 0 … 2047, wrapped if negative).  ops5: the two index columns joined, the gather of
  the diagonal, its sum, the division by the number of columns and the negation. -/

abbrev ops1 : List (HloOp τ sig (Elt F)) :=
  [ binary main_arg0 main_arg1 main_v0 ((fun l r => Host.dotGeneral dot_S8x256x2048_S8x256x2048_S8x2048x2048_1_1_2_2_0_0 none l r) : (⟨S8x256x2048, .f32⟩ : BufTy).Contents (Elt F) → (⟨S8x256x2048, .f32⟩ : BufTy).Contents (Elt F) → (⟨S8x2048x2048, .f32⟩ : BufTy).Contents (Elt F)),
    nullary main_cst (constant S_ .f32 0x3F800000#32),
    unary main_cst main_v1 (broadcastInDim S8x2048x2048 ![] bcast_S_S8x2048x2048 : (⟨S_, .f32⟩ : BufTy).Contents (Elt F) → (⟨S8x2048x2048, .f32⟩ : BufTy).Contents (Elt F)),
    binary main_v0 main_v1 main_v2 (Host.divf : (⟨S8x2048x2048, .f32⟩ : BufTy).Contents (Elt F) → (⟨S8x2048x2048, .f32⟩ : BufTy).Contents (Elt F) → (⟨S8x2048x2048, .f32⟩ : BufTy).Contents (Elt F)),
    TRef.nullary (TRef.of (T := ⟨S_, .f32⟩) main_call0_cst) (constant S_ .f32 0xFF800000#32),
    TRef.binary (TRef.of (T := ⟨S8x2048x2048, .f32⟩) main_v2) (TRef.of (T := ⟨S_, .f32⟩) main_call0_cst) (TRef.of (T := ⟨S8x2048, .f32⟩) main_call0_v0) (fun x v => Host.reduce FloatOps.maximumf x v reducesTo_S8x2048x2048_S8x2048_d1 h_S_) ]

abbrev ops2 : List (HloOp τ sig (Elt F)) :=
  [ TRef.nullary (TRef.of (T := ⟨S_, .f32⟩) main_call0_cst_0) (constant S_ .f32 0xFF800000#32),
    TRef.unary (TRef.of (T := ⟨S_, .f32⟩) main_call0_cst_0) (TRef.of (T := ⟨S8x2048, .f32⟩) main_call0_v1) (broadcastInDim S8x2048 ![] bcast_S_S8x2048),
    TRef.binary (TRef.of (T := ⟨S8x2048, .f32⟩) main_call0_v1) (TRef.of (T := ⟨S8x2048, .f32⟩) main_call0_v0) (TRef.of (T := ⟨S8x2048, .f32⟩) main_call0_v2) maximumf,
    TRef.unary (TRef.of (T := ⟨S8x2048, .f32⟩) main_call0_v2) (TRef.of (T := ⟨S8x1x2048, .f32⟩) main_call0_v3) (broadcastInDim S8x1x2048 ![0, 2] bcast_S8x2048_S8x1x2048_0_2),
    TRef.unary (TRef.of (T := ⟨S8x1x2048, .f32⟩) main_call0_v3) (TRef.of (T := ⟨S8x2048x2048, .f32⟩) main_call0_v4) (broadcastInDim S8x2048x2048 ![0, 1, 2] bcast_S8x1x2048_S8x2048x2048_0_1_2),
    TRef.binary (TRef.of (T := ⟨S8x2048x2048, .f32⟩) main_v2) (TRef.of (T := ⟨S8x2048x2048, .f32⟩) main_call0_v4) (TRef.of (T := ⟨S8x2048x2048, .f32⟩) main_call0_v5) subf ]

abbrev ops3 : List (HloOp τ sig (Elt F)) :=
  [ TRef.unary (TRef.of (T := ⟨S8x2048x2048, .f32⟩) main_call0_v5) (TRef.of (T := ⟨S8x2048x2048, .f32⟩) main_call0_v6) Host.exp,
    TRef.nullary (TRef.of (T := ⟨S_, .f32⟩) main_call0_cst_1) (constant S_ .f32 0x00000000#32),
    TRef.binary (TRef.of (T := ⟨S8x2048x2048, .f32⟩) main_call0_v6) (TRef.of (T := ⟨S_, .f32⟩) main_call0_cst_1) (TRef.of (T := ⟨S8x2048, .f32⟩) main_call0_v7) (fun x v => Host.reduceAdd x v reducesTo_S8x2048x2048_S8x2048_d1 h_S_),
    TRef.unary (TRef.of (T := ⟨S8x2048, .f32⟩) main_call0_v7) (TRef.of (T := ⟨S8x1x2048, .f32⟩) main_call0_v8) (broadcastInDim S8x1x2048 ![0, 2] bcast_S8x2048_S8x1x2048_0_2),
    TRef.unary (TRef.of (T := ⟨S8x1x2048, .f32⟩) main_call0_v8) (TRef.of (T := ⟨S8x1x2048, .f32⟩) main_call0_v9) Host.log,
    TRef.unary (TRef.of (T := ⟨S8x1x2048, .f32⟩) main_call0_v9) (TRef.of (T := ⟨S8x2048x2048, .f32⟩) main_call0_v10) (broadcastInDim S8x2048x2048 ![0, 1, 2] bcast_S8x1x2048_S8x2048x2048_0_1_2),
    TRef.binary (TRef.of (T := ⟨S8x2048x2048, .f32⟩) main_call0_v5) (TRef.of (T := ⟨S8x2048x2048, .f32⟩) main_call0_v10) (TRef.of (T := ⟨S8x2048x2048, .f32⟩) main_v3) subf ]

abbrev ops4 : List (HloOp τ sig (Elt F)) :=
  [ TRef.nullary (TRef.of (T := ⟨S2048, .i32⟩) main_call1_v0) (iotaInDim S2048 32 0),
    TRef.nullary (TRef.of (T := ⟨S2048, .i32⟩) main_call1_v1) (iotaInDim S2048 32 0),
    TRef.nullary (TRef.of (T := ⟨S_, .i32⟩) main_call1_c) (constantI S_ 32 0#32),
    TRef.unary (TRef.of (T := ⟨S_, .i32⟩) main_call1_c) (TRef.of (T := ⟨S2048, .i32⟩) main_call1_v2) (broadcastInDim S2048 ![] bcast_S_S2048),
    TRef.binary (TRef.of (T := ⟨S2048, .i32⟩) main_call1_v0) (TRef.of (T := ⟨S2048, .i32⟩) main_call1_v2) (TRef.of (T := ⟨S2048, .i1⟩) main_call1_v3) (cmpi .slt),
    TRef.nullary (TRef.of (T := ⟨S_, .i32⟩) main_call1_c_0) (constantI S_ 32 2048#32),
    TRef.unary (TRef.of (T := ⟨S_, .i32⟩) main_call1_c_0) (TRef.of (T := ⟨S2048, .i32⟩) main_call1_v4) (broadcastInDim S2048 ![] bcast_S_S2048),
    TRef.binary (TRef.of (T := ⟨S2048, .i32⟩) main_call1_v0) (TRef.of (T := ⟨S2048, .i32⟩) main_call1_v4) (TRef.of (T := ⟨S2048, .i32⟩) main_call1_v5) addi,
    TRef.ternary (TRef.of (T := ⟨S2048, .i1⟩) main_call1_v3) (TRef.of (T := ⟨S2048, .i32⟩) main_call1_v5) (TRef.of (T := ⟨S2048, .i32⟩) main_call1_v0) (TRef.of (T := ⟨S2048, .i32⟩) main_call1_v6) select,
    TRef.nullary (TRef.of (T := ⟨S_, .i32⟩) main_call1_c_1) (constantI S_ 32 0#32),
    TRef.unary (TRef.of (T := ⟨S_, .i32⟩) main_call1_c_1) (TRef.of (T := ⟨S2048, .i32⟩) main_call1_v7) (broadcastInDim S2048 ![] bcast_S_S2048),
    TRef.binary (TRef.of (T := ⟨S2048, .i32⟩) main_call1_v1) (TRef.of (T := ⟨S2048, .i32⟩) main_call1_v7) (TRef.of (T := ⟨S2048, .i1⟩) main_call1_v8) (cmpi .slt),
    TRef.nullary (TRef.of (T := ⟨S_, .i32⟩) main_call1_c_2) (constantI S_ 32 2048#32),
    TRef.unary (TRef.of (T := ⟨S_, .i32⟩) main_call1_c_2) (TRef.of (T := ⟨S2048, .i32⟩) main_call1_v9) (broadcastInDim S2048 ![] bcast_S_S2048),
    TRef.binary (TRef.of (T := ⟨S2048, .i32⟩) main_call1_v1) (TRef.of (T := ⟨S2048, .i32⟩) main_call1_v9) (TRef.of (T := ⟨S2048, .i32⟩) main_call1_v10) addi,
    TRef.ternary (TRef.of (T := ⟨S2048, .i1⟩) main_call1_v8) (TRef.of (T := ⟨S2048, .i32⟩) main_call1_v10) (TRef.of (T := ⟨S2048, .i32⟩) main_call1_v1) (TRef.of (T := ⟨S2048, .i32⟩) main_call1_v11) select,
    TRef.unary (TRef.of (T := ⟨S2048, .i32⟩) main_call1_v6) (TRef.of (T := ⟨S2048x1, .i32⟩) main_call1_v12) (broadcastInDim S2048x1 ![0] bcast_S2048_S2048x1_0),
    TRef.unary (TRef.of (T := ⟨S2048, .i32⟩) main_call1_v11) (TRef.of (T := ⟨S2048x1, .i32⟩) main_call1_v13) (broadcastInDim S2048x1 ![0] bcast_S2048_S2048x1_0) ]

abbrev ops5 : List (HloOp τ sig (Elt F)) :=
  [ TRef.binary (TRef.of (T := ⟨S2048x1, .i32⟩) main_call1_v12) (TRef.of (T := ⟨S2048x1, .i32⟩) main_call1_v13) (TRef.of (T := ⟨S2048x2, .i32⟩) main_call1_v14) (fun a b => concatenate S2048x2 1 [⟨S2048x1, a⟩, ⟨S2048x1, b⟩] concatenates_S2048x1_S2048x1_S2048x2_d1),
    TRef.binary (TRef.of (T := ⟨S8x2048x2048, .f32⟩) main_v3) (TRef.of (T := ⟨S2048x2, .i32⟩) main_call1_v14) (TRef.of (T := ⟨S8x2048, .f32⟩) main_v4) (fun x i => Host.gather gather_S8x2048x2048_S2048x2_S8x2048_0_12_n_n_12_1_811 x i),
    nullary main_cst_0 (constant S_ .f32 0x00000000#32),
    binary main_v4 main_cst_0 main_v5 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    nullary main_cst_1 (constant S_ .f32 0x46800000#32),
    binary main_v5 main_cst_1 main_v6 (Host.divf : (⟨S_, .f32⟩ : BufTy).Contents (Elt F) → (⟨S_, .f32⟩ : BufTy).Contents (Elt F) → (⟨S_, .f32⟩ : BufTy).Contents (Elt F)),
    unary main_v6 main_v7 (Host.negf : (⟨S_, .f32⟩ : BufTy).Contents (Elt F) → (⟨S_, .f32⟩ : BufTy).Contents (Elt F)) ]

/-- Running two lines one after the other: the second starts from what the first leaves. -/
theorem after_append {τ' : Topo} {sig' : RefSig} {Val : EltTy → Type} (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

/-- The 44 operations are the five pieces in order. -/
theorem ops_split : (ops : List (HloOp τ sig (Elt F))) = ops1 ++ (ops2 ++ (ops3 ++ (ops4 ++ ops5))) := rfl

set_option maxRecDepth 16384 in
/-- After the first piece the scaled logits are stage main_v2 of the arguments. -/
theorem res1_v2 (V : Valuation τ sig (Elt F)) :
    after (ops1 (F := F)) V (Proc.devRef .tc main_v2)
      = ReadP.val_main_v2 (F := F) (V (Proc.devRef .tc main_arg0)) (V (Proc.devRef .tc main_arg1)) := by
  after_results_simp
  try simp only [cast_cast, cast_eq]
  rfl

set_option maxRecDepth 16384 in
/-- After the first piece the column maxima are stage main_call0_v0 of the arguments. -/
theorem res1_call0_v0 (V : Valuation τ sig (Elt F)) :
    after (ops1 (F := F)) V (Proc.devRef .tc main_call0_v0)
      = ReadP.val_main_call0_v0 (F := F) (V (Proc.devRef .tc main_arg0)) (V (Proc.devRef .tc main_arg1)) := by
  after_results_simp
  try simp only [cast_cast, cast_eq]
  rfl

set_option maxRecDepth 16384 in
/-- The second piece turns scaled logits and column maxima into the shifted logits. -/
theorem res2_call0_v5 (W : Valuation τ sig (Elt F)) (x0 x1 : (⟨S8x256x2048, .f32⟩ : BufTy).Contents (Elt F))
    (h2 : W (Proc.devRef .tc main_v2) = ReadP.val_main_v2 (F := F) x0 x1)
    (h0 : W (Proc.devRef .tc main_call0_v0) = ReadP.val_main_call0_v0 (F := F) x0 x1) :
    after (ops2 (F := F)) W (Proc.devRef .tc main_call0_v5) = ReadP.val_main_call0_v5 (F := F) x0 x1 := by
  after_results_simp
  simp only [cast_cast, cast_eq]
  rw [h2, h0]
  rfl

set_option maxRecDepth 16384 in
/-- The third piece turns the shifted logits into the log-softmax. -/
theorem res3_v3 (W : Valuation τ sig (Elt F)) (x0 x1 : (⟨S8x256x2048, .f32⟩ : BufTy).Contents (Elt F))
    (h5 : W (Proc.devRef .tc main_call0_v5) = ReadP.val_main_call0_v5 (F := F) x0 x1) :
    after (ops3 (F := F)) W (Proc.devRef .tc main_v3) = ReadP.val_main_v3 (F := F) x0 x1 := by
  after_results_simp
  simp only [cast_cast, cast_eq]
  rw [h5]
  rfl

set_option maxRecDepth 16384 in
/-- The fourth piece does not write the log-softmax's buffer. -/
theorem res4_v3 (W : Valuation τ sig (Elt F)) :
    after (ops4 (F := F)) W (Proc.devRef .tc main_v3) = W (Proc.devRef .tc main_v3) := by
  after_results_simp

set_option maxRecDepth 16384 in
/-- The fourth piece leaves the first index column, whatever it started from. -/
theorem res4_call1_v12 (W : Valuation τ sig (Elt F)) :
    after (ops4 (F := F)) W (Proc.devRef .tc main_call1_v12) = ReadP.val_main_call1_v12 (F := F) := by
  after_results_simp
  try simp only [cast_cast, cast_eq]
  rfl

set_option maxRecDepth 16384 in
/-- The fourth piece leaves the second index column, whatever it started from. -/
theorem res4_call1_v13 (W : Valuation τ sig (Elt F)) :
    after (ops4 (F := F)) W (Proc.devRef .tc main_call1_v13) = ReadP.val_main_call1_v13 (F := F) := by
  after_results_simp
  try simp only [cast_cast, cast_eq]
  rfl

set_option maxRecDepth 16384 in
/-- The fifth piece turns the log-softmax and the two index columns into the negated mean of the diagonal. -/
theorem res5_v7 (W : Valuation τ sig (Elt F)) (x0 x1 : (⟨S8x256x2048, .f32⟩ : BufTy).Contents (Elt F))
    (h3 : W (Proc.devRef .tc main_v3) = ReadP.val_main_v3 (F := F) x0 x1)
    (h12 : W (Proc.devRef .tc main_call1_v12) = ReadP.val_main_call1_v12 (F := F))
    (h13 : W (Proc.devRef .tc main_call1_v13) = ReadP.val_main_call1_v13 (F := F)) :
    after (ops5 (F := F)) W (Proc.devRef .tc main_v7) = ReadP.val_main_v7 (F := F) x0 x1 := by
  after_results_simp
  simp only [cast_cast, cast_eq]
  rw [h3, h12, h13]
  rfl

/-- The whole line leaves the last stage's value in the result buffer. -/
theorem res_v7 (V : Valuation τ sig (Elt F)) :
    after (ops (F := F)) V (Proc.devRef .tc main_v7)
      = ReadP.val_main_v7 (F := F) (V (Proc.devRef .tc main_arg0)) (V (Proc.devRef .tc main_arg1)) := by
  rw [ops_split, after_append, after_append, after_append, after_append]
  exact res5_v7 _ _ _
    ((res4_v3 _).trans (res3_v3 _ _ _ (res2_call0_v5 _ _ _ (res1_v2 V) (res1_call0_v0 V))))
    (res4_call1_v12 _) (res4_call1_v13 _)

set_option maxRecDepth 8192 in
set_option maxHeartbeats 2000000 in
/-- On every device, from any memory with zero counters: every weakly fair execution of the program terminates with
    the result buffer at the last stage's value of the two arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = ReadP.val_main_v7 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v7).trans (res_v7 (launchContents m c)),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RunH

end
-- ==== Proof.RefValue.lean ====
/-
  The value of the reference program, read down to plain coordinates.

  For z1, z2 of shape [8, 256, 2048] the program forms the logits logit b n m = ∑ s, z1[b,s,n] · z2[b,s,m] (a
  contraction over the 256 samples, then a division by the constant one), takes the log-softmax over the axis n —
  with M = max over n of logit b n m (a fold of max from −∞) and Z = ∑ n, exp (logit b n m − M) the array is
  (logit b n m − M) − log Z —, gathers its diagonal n = m (the start indices of row k are the pair (k, k): each column
  is k as a 32-bit word, which is not negative, so the wrap-around select keeps it, and reading it signed and clamping
  it into [0, 2047] gives k back), sums the 8 · 2048 gathered entries from zero, divides by 16384 and negates.
  Each stage is read at one element from the stage before; the three stages whose element is not one element of each
  operand (the maximum over an axis, the two index columns laid side by side, the gather) are read from their
  definitions first. The result is the negated mean log-softmax diagonal of the specification.
-/
import proofs.«172110_j1056561955229_1_alg».proof.Proof.Spec
import proofs.«172110_j1056561955229_1_alg».proof.Proof.RefRead
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.ReferenceIdeal.RefValue

open Idealize.ShloMosaic Idealize.ShloMosaic.ValueIdx Cert.ReferenceIdeal

variable [Cert.ReferenceIdeal.Facts]

open Facts₀

/-! ## The maximum over the softmax axis -/

/-- The reduce with a maximum body from −∞ over axis 1, read at (b, m): the fold of max from ⊥ over n. -/
theorem reduce_max_apply (x : (⟨S8x2048x2048, .f32⟩ : BufTy).Contents (Elt Ideal)) (b : Fin 8) (m : Fin 2048) :
    Host.reduce FloatOps.maximumf x (constant (F := Ideal) S_ .f32 0xFF800000#32) reducesTo_S8x2048x2048_S8x2048_d1 h_S_ (ix2 b m)
      = (Finset.univ : Finset (Fin 2048)).fold max ⊥ (fun n => x (ix3 b n m)) := by
  have h : S8x2048x2048.Reduces [1] S8x2048 := by decide
  refine (Host.reduce_eq_fold_single (FloatOps.maximumf (F := Ideal) (φ := .f32)) x _ reducesTo_S8x2048x2048_S8x2048_d1 h h_S_ (ix2 b m)).trans ?_
  have hb : (constant (F := Ideal) S_ .f32 0xFF800000#32) (Shape.Idx.first h_S_) = (⊥ : EReal) := by
    show Ideal.ofBits .f32 0xFF800000#32 = ⊥
    simp [Ideal.ofBits, Ideal.ieee]
  have hf : (x ∘ h.lift (ix2 b m)) = fun n : Fin 2048 => x (ix3 b n m) :=
    funext fun k => congrArg x (by funext c; apply Fin.ext; fin_cases c <;> rfl)
  rw [hb, hf]
  rfl

/-! ## The two index columns side by side -/

/-- Two [2048, 1] columns joined along axis 1: entry (k, 0) is the first column's entry k. -/
theorem concat_col0 (u v : (⟨S2048x1, .i32⟩ : BufTy).Contents (Elt Ideal)) (k : Fin 2048) :
    concatenate S2048x2 1 [⟨S2048x1, u⟩, ⟨S2048x1, v⟩] concatenates_S2048x1_S2048x1_S2048x2_d1 (ix2 k (0 : Fin 2))
      = u (ix2 k (0 : Fin 1)) :=
  concatenate_pair_apply_left (1 : Fin S2048x2.rank) u v concatenates_S2048x1_S2048x1_S2048x2_d1 (ix2 k (0 : Fin 2)) rfl
    (ix2 k (0 : Fin 1)) (fun c => by match c with | ⟨0, _⟩ => rfl | ⟨1, _⟩ => rfl)

/-- … and entry (k, 1) is the second column's entry k. -/
theorem concat_col1 (u v : (⟨S2048x1, .i32⟩ : BufTy).Contents (Elt Ideal)) (k : Fin 2048) :
    concatenate S2048x2 1 [⟨S2048x1, u⟩, ⟨S2048x1, v⟩] concatenates_S2048x1_S2048x1_S2048x2_d1 (ix2 k (1 : Fin 2))
      = v (ix2 k (0 : Fin 1)) :=
  concatenate_pair_apply_right (1 : Fin S2048x2.rank) u v concatenates_S2048x1_S2048x1_S2048x2_d1 (ix2 k (1 : Fin 2)) rfl rfl
    (ix2 k (0 : Fin 1)) (fun c hc => by match c with | ⟨0, _⟩ => rfl | ⟨1, _⟩ => exact absurd rfl hc) rfl

local notation "GD" => gather_S8x2048x2048_S2048x2_S8x2048_0_12_n_n_12_1_811

/-! ## The gather of the diagonal -/

/-- Axis 0 of the operand is not indexed: its slice starts at 0. -/
private theorem gd_start0 (j : S8x2048.Idx) (idx : IVec S2048x2 32) :
    GatherDims.start GD j idx (0 : Fin 3) = 0 := by
  unfold GatherDims.start
  exact dif_neg (show ¬ (0 : Fin 3) ∈ ([1, 2] : List (Fin 3)) by decide)

/-- Axis 0 is the one kept axis: its offset is the result's first coordinate. -/
private theorem gd_off0 (j : S8x2048.Idx) : GatherDims.offCoord GD j (0 : Fin 3) = (j 0).val := by
  unfold GatherDims.offCoord
  have hm : (0 : Fin 3) ∈ ([0] : List (Fin 3)) := by decide
  rw [dif_pos (show (0 : Fin S8x2048x2048.rank) ∈ GatherDims.sKept GD from hm)]
  rfl

/-- Axes 1 and 2 are collapsed: no offset. -/
private theorem gd_off1 (j : S8x2048.Idx) : GatherDims.offCoord GD j (1 : Fin 3) = 0 :=
  GatherDims.offCoord_eq_zero _ _ _ (fun h => ((GatherDims.mem_sKept _ _).mp h).1
    (show (1 : Fin 3) ∈ ([1, 2] : List (Fin 3)) by decide))
private theorem gd_off2 (j : S8x2048.Idx) : GatherDims.offCoord GD j (2 : Fin 3) = 0 :=
  GatherDims.offCoord_eq_zero _ _ _ (fun h => ((GatherDims.mem_sKept _ _).mp h).1
    (show (2 : Fin 3) ∈ ([1, 2] : List (Fin 3)) by decide))

/-- Axis 1 starts at the first word of the row's start index, clamped. -/
private theorem gd_start1 (b : Fin 8) (k : Fin 2048) (idx : IVec S2048x2 32) :
    GatherDims.start GD (ix2 b k) idx (1 : Fin 3) = min (idx (ix2 k (0 : Fin 2))).toInt.toNat 2047 := by
  have hm : (1 : Fin 3) ∈ ([1, 2] : List (Fin 3)) := by decide
  unfold GatherDims.start
  rw [dif_pos (show (1 : Fin S8x2048x2048.rank) ∈ GatherDims.startIndexMap GD from hm)]
  have hsi : GatherDims.siIdx GD (ix2 b k) ⟨List.idxOf (1 : Fin S8x2048x2048.rank) (GatherDims.startIndexMap GD),
      List.idxOf_lt_length_iff.2 hm⟩ = ix2 k (0 : Fin 2) := by
    funext c; refine Fin.ext ?_
    match c with
    | ⟨0, _⟩ => rfl
    | ⟨1, _⟩ => rfl
  rw [hsi]
  rfl

/-- Axis 2 starts at the second word, clamped. -/
private theorem gd_start2 (b : Fin 8) (k : Fin 2048) (idx : IVec S2048x2 32) :
    GatherDims.start GD (ix2 b k) idx (2 : Fin 3) = min (idx (ix2 k (1 : Fin 2))).toInt.toNat 2047 := by
  have hm : (2 : Fin 3) ∈ ([1, 2] : List (Fin 3)) := by decide
  unfold GatherDims.start
  rw [dif_pos (show (2 : Fin S8x2048x2048.rank) ∈ GatherDims.startIndexMap GD from hm)]
  have hsi : GatherDims.siIdx GD (ix2 b k) ⟨List.idxOf (2 : Fin S8x2048x2048.rank) (GatherDims.startIndexMap GD),
      List.idxOf_lt_length_iff.2 hm⟩ = ix2 k (1 : Fin 2) := by
    funext c; refine Fin.ext ?_
    match c with
    | ⟨0, _⟩ => rfl
    | ⟨1, _⟩ => rfl
  rw [hsi]
  rfl

/-- The gather read at (b, k): the operand at (b, i, j), the two start-index words of row k read signed and clamped
    into [0, 2047]. -/
theorem gather_diag_apply {α : Type} (x : S8x2048x2048.Idx → α) (idx : IVec S2048x2 32) (b : Fin 8) (k : Fin 2048) :
    Host.gather GD x idx (ix2 b k)
      = x (ix3 b (⟨min (idx (ix2 k (0 : Fin 2))).toInt.toNat 2047, by omega⟩ : Fin 2048)
                 (⟨min (idx (ix2 k (1 : Fin 2))).toInt.toNat 2047, by omega⟩ : Fin 2048)) := by
  unfold Host.gather
  congr 1
  funext a
  refine Fin.ext ?_
  show GatherDims.start GD (ix2 b k) idx a + GatherDims.batchCoord GD (ix2 b k) a + GatherDims.offCoord GD (ix2 b k) a = _
  rw [GatherDims.batchCoord_eq_zero _ _ _ List.not_mem_nil, Nat.add_zero]
  match a with
  | ⟨0, _⟩ =>
    show GatherDims.start GD (ix2 b k) idx (0 : Fin 3) + GatherDims.offCoord GD (ix2 b k) (0 : Fin 3) = b.val
    rw [gd_start0, gd_off0, Nat.zero_add]
  | ⟨1, _⟩ =>
    show GatherDims.start GD (ix2 b k) idx (1 : Fin 3) + GatherDims.offCoord GD (ix2 b k) (1 : Fin 3) = _
    rw [gd_start1, gd_off1, Nat.add_zero]
  | ⟨2, _⟩ =>
    show GatherDims.start GD (ix2 b k) idx (2 : Fin 3) + GatherDims.offCoord GD (ix2 b k) (2 : Fin 3) = _
    rw [gd_start2, gd_off2, Nat.add_zero]

/-! ## The index words -/

/-- The word of k < 2048, read signed, is k. -/
theorem word_toInt (k : Fin 2048) : (BitVec.ofNat 32 k.val).toInt = (k.val : Int) := by
  have hk := k.isLt
  have hn : (BitVec.ofNat 32 k.val).toNat = k.val := by
    rw [BitVec.toNat_ofNat]; exact Nat.mod_eq_of_lt (by omega)
  rw [BitVec.toInt_eq_toNat_of_lt (by rw [hn]; omega), hn]

/-- Row k's start-index word: k as a 32-bit word is not negative, so the select keeps it. -/
theorem index_word (k : Fin 2048) :
    Scalar.select (IntOp.cmpi .slt (BitVec.ofNat 32 k.val) 0#32) (IntOp.addi (BitVec.ofNat 32 k.val) 2048#32) (BitVec.ofNat 32 k.val)
      = BitVec.ofNat 32 k.val := by
  have hlt : (BitVec.ofNat 32 k.val).slt 0#32 = false := by
    rw [BitVec.slt_eq_decide, word_toInt, BitVec.toInt_zero]
    exact decide_eq_false (by omega)
  unfold Scalar.select IntOp.cmpi
  simp only [hlt]
  rfl

/-- Read signed and clamped into [0, 2047], the word of k is k. -/
theorem index_word_clamp (k : Fin 2048) : min (BitVec.ofNat 32 k.val).toInt.toNat 2047 = k.val := by
  have hk := k.isLt
  rw [word_toInt, Int.toNat_natCast]
  exact Nat.min_eq_left (by omega)

/-! ## The stages, one element at a time -/

/-- The word 0x3F800000 is the real number one. -/
theorem ofBits_one : Ideal.ofBits .f32 0x3F800000#32 = ((1 : ℝ) : EReal) := by
  simp [Ideal.ofBits, Ideal.ieee]
  norm_cast
  norm_num

/-- The word 0xFF800000 is −∞. -/
theorem ofBits_ninf : Ideal.ofBits .f32 0xFF800000#32 = (⊥ : EReal) := by
  simp [Ideal.ofBits, Ideal.ieee]

/-- Dividing by one changes nothing. -/
theorem div_one' (y : EReal) : Ideal.div y ((1 : ℝ) : EReal) = y := by
  rw [Ideal.div_coe one_ne_zero]
  simp

section Stages
variable (x0 x1 : (⟨S8x256x2048, .f32⟩ : BufTy).Contents (Elt Ideal))

/-- The logits: the contraction over the 256 samples, divided by the constant one. -/
theorem v2_apply (b : Fin 8) (n m : Fin 2048) :
    ReadP.val_main_v2 (F := Ideal) x0 x1 (ix3 b n m) = DiagCE.logit x0 x1 b n m := by
  rw [ReadP.val_main_v2_apply, ReadP.val_main_v0_apply, ReadP.val_main_v1_apply, ReadP.val_main_cst_apply]
  simp only [Ideal.hostDivf_def, Ideal.ofBits_def, ofBits_one, div_one']
  unfold DiagCE.logit
  refine Finset.sum_congr rfl fun s _ => ?_
  have el : ReadP.lidx_main_v0 (ix3 b n m) s = ix3 b s n :=
    funext fun a => Fin.ext (by match a with | ⟨0, _⟩ => rfl | ⟨1, _⟩ => rfl | ⟨2, _⟩ => rfl)
  have er : ReadP.ridx_main_v0 (ix3 b n m) s = ix3 b s m :=
    funext fun a => Fin.ext (by match a with | ⟨0, _⟩ => rfl | ⟨1, _⟩ => rfl | ⟨2, _⟩ => rfl)
  rw [el, er]

/-- The reduce stage: the column's maximum M(b, m), as the fold of max from −∞. -/
theorem v0max_apply (b : Fin 8) (m : Fin 2048) :
    ReadP.val_main_call0_v0 (F := Ideal) x0 x1 (ix2 b m) = DiagCE.foldMax (fun n => DiagCE.logit x0 x1 b n m) := by
  refine (reduce_max_apply (ReadP.val_main_v2 (F := Ideal) x0 x1) b m).trans ?_
  unfold DiagCE.foldMax
  simp only [v2_apply]

/-- The maximum with the broadcast −∞ is still M(b, m). -/
theorem v2max_apply (b : Fin 8) (m : Fin 2048) :
    ReadP.val_main_call0_v2 (F := Ideal) x0 x1 (ix2 b m) = DiagCE.foldMax (fun n => DiagCE.logit x0 x1 b n m) := by
  rw [ReadP.val_main_call0_v2_apply, ReadP.val_main_call0_v1_apply, ReadP.val_main_call0_cst_0_apply, v0max_apply]
  simp only [Ideal.maximumf_def, Ideal.ofBits_def, ofBits_ninf]
  exact max_bot_left _

/-- The shifted logits: logit − M. -/
theorem v5_apply (b : Fin 8) (n m : Fin 2048) :
    ReadP.val_main_call0_v5 (F := Ideal) x0 x1 (ix3 b n m)
      = DiagCE.logit x0 x1 b n m - DiagCE.foldMax (fun n => DiagCE.logit x0 x1 b n m) := by
  have e : ReadP.idx_main_call0_v3 (ReadP.idx_main_call0_v4 (ix3 b n m)) = ix2 b m :=
    funext fun a => Fin.ext (by match a with | ⟨0, _⟩ => rfl | ⟨1, _⟩ => rfl)
  rw [ReadP.val_main_call0_v5_apply, v2_apply, ReadP.val_main_call0_v4_apply, ReadP.val_main_call0_v3_apply, e, v2max_apply]
  rfl

/-- The normaliser Z(b, m): the sum over the softmax axis of exp (logit − M). -/
theorem v7_apply (b : Fin 8) (m : Fin 2048) :
    ReadP.val_main_call0_v7 (F := Ideal) x0 x1 (ix2 b m)
      = ∑ n : Fin 2048, Ideal.exp (DiagCE.logit x0 x1 b n m - DiagCE.foldMax (fun n => DiagCE.logit x0 x1 b n m)) := by
  rw [ReadP.val_main_call0_v7_apply, ReadP.val_main_call0_cst_1_apply]
  simp only [Ideal.ofBits_def, Ideal.ofBits_zero_f32, zero_add]
  refine Finset.sum_congr rfl fun n _ => ?_
  have e : ReadP.idx_main_call0_v7 (ix2 b m) n = ix3 b n m :=
    funext fun a => Fin.ext (by match a with | ⟨0, _⟩ => rfl | ⟨1, _⟩ => rfl | ⟨2, _⟩ => rfl)
  rw [e, ReadP.val_main_call0_v6_apply, v5_apply]
  rfl

/-- The log-softmax array: (logit − M) − log Z. -/
theorem v3_apply (b : Fin 8) (n m : Fin 2048) :
    ReadP.val_main_v3 (F := Ideal) x0 x1 (ix3 b n m)
      = (DiagCE.logit x0 x1 b n m - DiagCE.foldMax (fun n => DiagCE.logit x0 x1 b n m))
        - Ideal.log (∑ n : Fin 2048, Ideal.exp (DiagCE.logit x0 x1 b n m - DiagCE.foldMax (fun n => DiagCE.logit x0 x1 b n m))) := by
  have e : ReadP.idx_main_call0_v8 (ReadP.idx_main_call0_v10 (ix3 b n m)) = ix2 b m :=
    funext fun a => Fin.ext (by match a with | ⟨0, _⟩ => rfl | ⟨1, _⟩ => rfl)
  rw [ReadP.val_main_v3_apply, v5_apply, ReadP.val_main_call0_v10_apply, ReadP.val_main_call0_v9_apply,
    ReadP.val_main_call0_v8_apply, e, v7_apply]
  rfl

end Stages

/-! ## The start indices: row k holds (k, k) -/

/-- The first index column at row k is the word of k. -/
theorem v6w_apply (k : Fin 2048) : ReadP.val_main_call1_v6 (F := Ideal) (ix1 k) = BitVec.ofNat 32 k.val := by
  rw [ReadP.val_main_call1_v6_apply, ReadP.val_main_call1_v3_apply, ReadP.val_main_call1_v5_apply, ReadP.val_main_call1_v0_apply,
    ReadP.val_main_call1_v2_apply, ReadP.val_main_call1_c_apply, ReadP.val_main_call1_v4_apply, ReadP.val_main_call1_c_0_apply]
  exact index_word k

/-- The second index column at row k is the word of k. -/
theorem v11w_apply (k : Fin 2048) : ReadP.val_main_call1_v11 (F := Ideal) (ix1 k) = BitVec.ofNat 32 k.val := by
  rw [ReadP.val_main_call1_v11_apply, ReadP.val_main_call1_v8_apply, ReadP.val_main_call1_v10_apply, ReadP.val_main_call1_v1_apply,
    ReadP.val_main_call1_v7_apply, ReadP.val_main_call1_c_1_apply, ReadP.val_main_call1_v9_apply, ReadP.val_main_call1_c_2_apply]
  exact index_word k

/-- Row k of the start indices: its first entry is the word of k … -/
theorem v14_col0 (k : Fin 2048) : ReadP.val_main_call1_v14 (F := Ideal) (ix2 k (0 : Fin 2)) = BitVec.ofNat 32 k.val := by
  refine (concat_col0 _ _ k).trans ?_
  have e : ReadP.idx_main_call1_v12 (ix2 k (0 : Fin 1)) = ix1 k :=
    funext fun a => Fin.ext (by match a with | ⟨0, _⟩ => rfl)
  rw [ReadP.val_main_call1_v12_apply, e, v6w_apply]

/-- … and so is its second. -/
theorem v14_col1 (k : Fin 2048) : ReadP.val_main_call1_v14 (F := Ideal) (ix2 k (1 : Fin 2)) = BitVec.ofNat 32 k.val := by
  refine (concat_col1 _ _ k).trans ?_
  have e : ReadP.idx_main_call1_v13 (ix2 k (0 : Fin 1)) = ix1 k :=
    funext fun a => Fin.ext (by match a with | ⟨0, _⟩ => rfl)
  rw [ReadP.val_main_call1_v13_apply, e, v11w_apply]

/-! ## The diagonal and the mean -/

section Tail
variable (x0 x1 : (⟨S8x256x2048, .f32⟩ : BufTy).Contents (Elt Ideal))

/-- The gathered array at (b, k) is the log-softmax array at (b, k, k). -/
theorem v4_apply (b : Fin 8) (k : Fin 2048) :
    ReadP.val_main_v4 (F := Ideal) x0 x1 (ix2 b k) = ReadP.val_main_v3 (F := Ideal) x0 x1 (ix3 b k k) := by
  refine (gather_diag_apply (ReadP.val_main_v3 (F := Ideal) x0 x1) (ReadP.val_main_call1_v14 (F := Ideal)) b k).trans ?_
  have h0 : min (ReadP.val_main_call1_v14 (F := Ideal) (ix2 k (0 : Fin 2))).toInt.toNat 2047 = k.val := by
    rw [v14_col0]; exact index_word_clamp k
  have h1 : min (ReadP.val_main_call1_v14 (F := Ideal) (ix2 k (1 : Fin 2))).toInt.toNat 2047 = k.val := by
    rw [v14_col1]; exact index_word_clamp k
  exact congrArg₂ (fun i j : Fin 2048 => ReadP.val_main_v3 (F := Ideal) x0 x1 (ix3 b i j)) (Fin.ext h0) (Fin.ext h1)

/-- THE REFERENCE PROGRAM'S VALUE: the negated mean over the 8 · 2048 columns of the log-softmax at the diagonal. -/
theorem ref_value : ReadP.val_main_v7 (F := Ideal) x0 x1 = fun _ => DiagCE.negMeanLogp x0 x1 := by
  funext i
  rw [ReadP.val_main_v7_apply, ReadP.val_main_v6_apply, ReadP.val_main_v5_apply, ReadP.val_main_cst_0_apply,
    ReadP.val_main_cst_1_apply]
  simp only [Ideal.hostNegf_def, Ideal.negf_def, Ideal.hostDivf_def, Ideal.ofBits_def, Ideal.ofBits_zero_f32, zero_add]
  unfold DiagCE.negMeanLogp DiagCE.nCols
  rw [sum_idx2]
  simp only [v4_apply, v3_apply]
  rfl

end Tail

end Cert.ReferenceIdeal.RefValue
end
-- ==== Proof.Algebra.lean ====
/-
  The two averages agree on real inputs.

  With real entries every logit is a real number, so for each column the maximum M of its logits is real, the
  sum Z of exp (logit − M) is a positive real and log Z is real.  Then the cross-entropy (M + log Z) − d and the
  log-softmax (d − M) − log Z at the diagonal logit d are two real numbers, one the negative of the other.  Summing
  over all columns and dividing by the nonzero real 16384 keeps that relation.  Nothing here uses that M is the
  maximum: the identity holds for any real M.
-/
import proofs.«172110_j1056561955229_1_alg».proof.Proof.Spec
import Mathlib.Tactic.Ring
import Mathlib.Tactic.NormNum

noncomputable section

open scoped BigOperators

namespace DiagCE

open Idealize.ShloMosaic Idealize.ShloMosaic.ValueIdx

/-- A finite sum of coerced reals is the coerced sum. -/
theorem coe_sum {ι : Type*} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- A finite sum of real numbers is a real number. -/
theorem real_sum {ι : Type*} [Fintype ι] (f : ι → EReal) (h : ∀ i, ∃ r : ℝ, f i = (r : EReal)) :
    ∃ r : ℝ, ∑ i, f i = (r : EReal) := by
  choose g hg using h
  exact ⟨∑ i, g i, by rw [← coe_sum]; exact Finset.sum_congr rfl fun i _ => hg i⟩

/-- With real entries each logit, a finite sum of products of reals, is real. -/
theorem logit_real (z1 z2 : A3.Idx → EReal) (h1 : ∀ i, ∃ r : ℝ, z1 i = (r : EReal))
    (h2 : ∀ i, ∃ r : ℝ, z2 i = (r : EReal)) (b : Fin 8) (n m : Fin 2048) :
    ∃ r : ℝ, logit z1 z2 b n m = (r : EReal) := by
  unfold logit
  apply real_sum
  intro s
  obtain ⟨a, ha⟩ := h1 (ix3 b s n)
  obtain ⟨c, hc⟩ := h2 (ix3 b s m)
  exact ⟨a * c, by rw [ha, hc, EReal.coe_mul]⟩

/-- The fold of max from −∞ over a nonempty family of reals is real: it is above −∞ because it is at least the
    entry at 0, and below +∞ because −∞ and every entry are. -/
theorem foldMax_real (f : Fin 2048 → EReal) (h : ∀ n, ∃ r : ℝ, f n = (r : EReal)) :
    ∃ r : ℝ, foldMax f = (r : EReal) := by
  have hbot : ⊥ < foldMax f := by
    unfold foldMax
    rw [Finset.lt_fold_max]
    right
    obtain ⟨r, hr⟩ := h 0
    exact ⟨0, Finset.mem_univ _, by rw [hr]; exact EReal.bot_lt_coe r⟩
  have htop : foldMax f < ⊤ := by
    unfold foldMax
    rw [Finset.fold_max_lt]
    refine ⟨bot_lt_top, fun x _ => ?_⟩
    obtain ⟨r, hr⟩ := h x
    rw [hr]; exact EReal.coe_lt_top r
  exact ⟨(foldMax f).toReal, (EReal.coe_toReal htop.ne hbot.ne').symm⟩

/-- One column: with real logits and a real diagonal logit the log-softmax is a real r and the cross-entropy is −r. -/
theorem lossOf_eq_neg_logpOf (f : Fin 2048 → EReal) (d : EReal) (hf : ∀ n, ∃ r : ℝ, f n = (r : EReal))
    (hd : ∃ r : ℝ, d = (r : EReal)) :
    ∃ r : ℝ, logpOf f d = (r : EReal) ∧ lossOf f d = ((-r : ℝ) : EReal) := by
  obtain ⟨M, hM⟩ := foldMax_real f hf
  obtain ⟨δ, hδ⟩ := hd
  choose g hg using hf
  have hexp : ∀ n, Ideal.exp (f n - foldMax f) = ((Real.exp (g n - M) : ℝ) : EReal) := by
    intro n
    rw [hg n, hM, ← EReal.coe_sub, Ideal.exp_coe]
  have hsum : (∑ n : Fin 2048, Ideal.exp (f n - foldMax f))
      = ((∑ n : Fin 2048, Real.exp (g n - M) : ℝ) : EReal) := by
    rw [← coe_sum]
    exact Finset.sum_congr rfl fun n _ => hexp n
  have hpos : 0 < ∑ n : Fin 2048, Real.exp (g n - M) :=
    Finset.sum_pos (fun n _ => Real.exp_pos _) ⟨0, Finset.mem_univ _⟩
  have hlog : Ideal.log (∑ n : Fin 2048, Ideal.exp (f n - foldMax f))
      = ((Real.log (∑ n : Fin 2048, Real.exp (g n - M)) : ℝ) : EReal) := by
    rw [hsum, Ideal.log_coe, if_neg (not_le.mpr hpos)]
  refine ⟨(δ - M) - Real.log (∑ n : Fin 2048, Real.exp (g n - M)), ?_, ?_⟩
  · unfold logpOf
    rw [hlog, hM, hδ, ← EReal.coe_sub, ← EReal.coe_sub]
  · unfold lossOf
    rw [hlog, hM, hδ, ← EReal.coe_add, ← EReal.coe_sub]
    congr 1
    ring

/-- The divisor's bit pattern denotes 16384. -/
theorem nCols_eq : nCols = ((16384 : ℝ) : EReal) := by
  unfold nCols
  simp [Ideal.ofBits, Ideal.ieee, -EReal.coe_mul]; norm_num

/-- On real inputs the mean cross-entropy is the negated mean log-softmax diagonal. -/
theorem meanLoss_eq_negMeanLogp (z1 z2 : A3.Idx → EReal) (h1 : ∀ i, ∃ r : ℝ, z1 i = (r : EReal))
    (h2 : ∀ i, ∃ r : ℝ, z2 i = (r : EReal)) :
    meanLoss z1 z2 = negMeanLogp z1 z2 := by
  have hcol : ∀ (b : Fin 8) (m : Fin 2048),
      ∃ r : ℝ, diagLogp z1 z2 b m = (r : EReal) ∧ colLoss z1 z2 b m = ((-r : ℝ) : EReal) := fun b m =>
    lossOf_eq_neg_logpOf _ _ (fun n => logit_real z1 z2 h1 h2 b n m) (logit_real z1 z2 h1 h2 b m m)
  choose r hr using hcol
  have hL : (∑ b : Fin 8, ∑ m : Fin 2048, colLoss z1 z2 b m)
      = ((-(∑ b : Fin 8, ∑ m : Fin 2048, r b m) : ℝ) : EReal) := by
    rw [← Finset.sum_neg_distrib, ← coe_sum]
    refine Finset.sum_congr rfl fun b _ => ?_
    rw [← Finset.sum_neg_distrib, ← coe_sum]
    exact Finset.sum_congr rfl fun m _ => (hr b m).2
  have hP : (∑ b : Fin 8, ∑ m : Fin 2048, diagLogp z1 z2 b m)
      = ((∑ b : Fin 8, ∑ m : Fin 2048, r b m : ℝ) : EReal) := by
    rw [← coe_sum]
    refine Finset.sum_congr rfl fun b _ => ?_
    rw [← coe_sum]
    exact Finset.sum_congr rfl fun m _ => (hr b m).1
  unfold meanLoss negMeanLogp
  rw [hL, hP, nCols_eq, Ideal.div_coe (by norm_num), Ideal.div_coe (by norm_num), ← EReal.coe_mul,
    ← EReal.coe_mul, ← EReal.coe_neg, neg_mul]

end DiagCE

end
-- ==== Proof.Finite.lean ====
/-
  The precondition says both arrays hold real numbers.

  It computes, for each array, whether |x| < +∞ at every element (the conjunction of the comparisons over all three
  axes, from true) and returns the conjunction of the two bits.  When that bit is 1, each comparison is 1 at every index.
  On the extended reals |x| is max x (−x), which is +∞ at both −∞ and +∞; so |x| < +∞ leaves only the real numbers.
-/
import proofs.«172110_j1056561955229_1_alg».proof.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx
open Cert.Pre_finite_inputs

variable [Cert.Pre_finite_inputs.Facts]

/-- The rank-0 shape has exactly one index. -/
instance : Subsingleton S_.Idx := ⟨fun a b => funext fun d => d.elim0⟩

/-- The pattern 0x7F800000 (exponent all ones, significand zero, sign clear) denotes +∞. -/
theorem ofBits_inf : Ideal.ofBits .f32 0x7F800000#32 = (⊤ : EReal) := by
  simp [Ideal.ofBits, Ideal.ieee]

/-- An extended real whose absolute value max x (−x) is strictly below +∞ is a real number: at −∞ and at +∞ the
    absolute value is +∞ itself. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One array: if the conjunction over all indices of |a i| < +∞ is 1, every entry of a is real. -/
theorem elem_real (a : FVec Ideal S8x256x2048 .f32)
    (h : Host.reduce IntOp.andi
          (cmpf .olt (Host.absf a)
            (broadcastInDim S8x256x2048 ![] Facts.bcast_S_S8x256x2048 (constant (F := Ideal) S_ .f32 0x7F800000#32)))
          (constantI S_ 1 1#1) Facts.reducesTo_S8x256x2048_S_d0_1_2 Facts.h_S_ ix0 = 1#1)
    (i : S8x256x2048.Idx) : ∃ r : ℝ, a i = (r : EReal) := by
  have e := Host.reduce_andi_all _ _ _ _ _ h i
  have e' : Ideal.cmp .olt (max (a i) (-(a i))) (Ideal.ofBits .f32 0x7F800000#32) = 1#1 := e
  rw [ofBits_inf] at e'
  exact real_of_abs_lt_top _ e'

/-- The precondition holding gives real entries in both arrays. -/
theorem real_of_pre (a0 a1 : FVec Ideal Cert.Pre_finite_inputs.S8x256x2048 .f32)
    (h : Cert.Pre_finite_inputs.fn (F := Ideal) a0 a1 = fun _ => 1#1) :
    (∀ i, ∃ r : ℝ, a0 i = (r : EReal)) ∧ (∀ i, ∃ r : ℝ, a1 i = (r : EReal)) := by
  have e := congrFun h ix0
  dsimp only [Cert.Pre_finite_inputs.fn] at e
  obtain ⟨e0, e1⟩ := IntOp.andi_eq_one.1 e
  exact ⟨elem_real a0 e0, elem_real a1 e1⟩

end Cert.FiniteInputs

end
-- ==== Proof.lean ====
/-
  The kernel computes the mean over the 8 · 2048 columns (b, m) of the cross-entropy of the correlation logits
  logit b n m = ∑ s, z1[b,s,n] · z2[b,s,m] over the softmax axis n against the label n = m: per column
  (max + log ∑ₙ exp (logit − max)) − logit b m m. The reference takes jax's log-softmax over n, reads its diagonal
  (logit b m m − max) − log ∑ₙ exp (logit − max), averages and negates. With finite inputs the three numbers of a column
  are real, so one column's value is the negative of the other's, a finite sum of negatives is the negative of the sum,
  and dividing by 16384 commutes with the sign: the two results are one extended real.

  Proof/Spec.lean states these functions; Proof/Payload.lean reads the kernel body's one stored value at a lane;
  Proof/KernelValue.lean carries it through the grid and the host lines after the call; Proof/RefValue.lean reads the
  reference's stages at an index; Proof/Algebra.lean is the identity on the extended reals and Proof/Finite.lean gives
  real entries from the precondition. The frames of the two kernel programs are the generated ones; the reference's frame
  is its run with the result dropped; the ideal pass rewrote nothing, so the idealization conjunct is `True`.
-/
import proofs.«172110_j1056561955229_1_alg».proof.Defs
import proofs.«172110_j1056561955229_1_alg».proof.Proof.Gen.Kernel
import proofs.«172110_j1056561955229_1_alg».proof.Proof.Gen.Kernel.Skeleton
import proofs.«172110_j1056561955229_1_alg».proof.Proof.Gen.Kernel.Launch
import proofs.«172110_j1056561955229_1_alg».proof.Proof.Gen.Kernel.Points
import proofs.«172110_j1056561955229_1_alg».proof.Proof.Gen.Kernel.Frame
import proofs.«172110_j1056561955229_1_alg».proof.Proof.Gen.KernelIdeal
import proofs.«172110_j1056561955229_1_alg».proof.Proof.Gen.KernelIdeal.Skeleton
import proofs.«172110_j1056561955229_1_alg».proof.Proof.Gen.KernelIdeal.Launch
import proofs.«172110_j1056561955229_1_alg».proof.Proof.Gen.KernelIdeal.Points
import proofs.«172110_j1056561955229_1_alg».proof.Proof.Gen.KernelIdeal.Frame
import proofs.«172110_j1056561955229_1_alg».proof.Proof.Gen.ReferenceIdeal
import proofs.«172110_j1056561955229_1_alg».proof.Proof.Gen.Pre_finite_inputs
import proofs.«172110_j1056561955229_1_alg».proof.Proof.KernelValue
import proofs.«172110_j1056561955229_1_alg».proof.Proof.RefRun
import proofs.«172110_j1056561955229_1_alg».proof.Proof.RefValue
import proofs.«172110_j1056561955229_1_alg».proof.Proof.Algebra
import proofs.«172110_j1056561955229_1_alg».proof.Proof.Finite
import Idealize.ShloMosaic.Adequacy
import Idealize.ShloMosaic.Init

noncomputable section

namespace Cert.Proof

open Idealize.ShloMosaic Idealize.SL.Sem Cert.Kernel

/-- The word-level kernel's frame is the generated one. -/
theorem frame_k : @Cert.frame_Kernel Cert.Kernel.Gen.facts Cert.Pre_finite_inputs.Gen.facts :=
  fun m ρ _ => Cert.Kernel.Gen.frame m ρ

/-- So is the idealized kernel's. -/
theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RunH.run (F := Ideal) m ρ)

/-- Both programs end with one extended real: the kernel's mean cross-entropy and the reference's negated mean
    log-softmax diagonal of arrays that agree, equal because the precondition makes every entry real. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => fun _ => DiagCE.meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.RunH.run (F := Ideal) m' ρ')
  obtain ⟨h1, h2⟩ := Cert.FiniteInputs.real_of_pre _ _ (hpre c)
  rw [Cert.ReferenceIdeal.RefValue.ref_value, (hagree c).1, (hagree c).2]
  funext _
  exact (DiagCE.meanLoss_eq_negMeanLogp _ _ h1 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
